-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x26x128 : Shape := ⟨3, ![4096, 26, 128]⟩
abbrev S1664x3328 : Shape := ⟨2, ![1664, 3328]⟩
abbrev S1664 : Shape := ⟨1, ![1664]⟩
abbrev S5x1664 : Shape := ⟨2, ![5, 1664]⟩
abbrev S5 : Shape := ⟨1, ![5]⟩
abbrev S1x5 : Shape := ⟨2, ![1, 5]⟩
abbrev S1 : Shape := ⟨1, ![1]⟩
abbrev S_ : Shape := ⟨0, ![]⟩

class Facts : Prop where
  bcast_S_S4096x26x128 : S_.BroadcastsInDim S4096x26x128 (![] : Fin 0 → Fin S4096x26x128.rank)
  reducesTo_S4096x26x128_S_d0_1_2 : S4096x26x128.ReducesTo [0, 1, 2] S_
  h_S_ : 0 < S_.numel
  bcast_S_S1664x3328 : S_.BroadcastsInDim S1664x3328 (![] : Fin 0 → Fin S1664x3328.rank)
  reducesTo_S1664x3328_S_d0_1 : S1664x3328.ReducesTo [0, 1] S_
  bcast_S_S1664 : S_.BroadcastsInDim S1664 (![] : Fin 0 → Fin S1664.rank)
  reducesTo_S1664_S_d0 : S1664.ReducesTo [0] S_
  bcast_S_S5x1664 : S_.BroadcastsInDim S5x1664 (![] : Fin 0 → Fin S5x1664.rank)
  reducesTo_S5x1664_S_d0_1 : S5x1664.ReducesTo [0, 1] S_
  bcast_S_S5 : S_.BroadcastsInDim S5 (![] : Fin 0 → Fin S5.rank)
  reducesTo_S5_S_d0 : S5.ReducesTo [0] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S5 .f32) (main_arg5 : FVec F S1x5 .f32) (main_arg6 : FVec F S1 .f32) (main_v13 : IVec S_ 1) (main_v16 : IVec S5x1664 1) : IVec S_ 1 :=
  let main_c_5 : IVec S_ 1 := constantI S_ 1 1#1
  let main_v17 : IVec S_ 1 := (fun x v => Host.reduce IntOp.andi x v reducesTo_S5x1664_S_d0_1 h_S_) main_v16 main_c_5
  let main_v18 : IVec S_ 1 := andi main_v13 main_v17
  let main_v19 : FVec F S5 .f32 := Host.absf main_arg4
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S1x5 .f32 := Host.absf main_arg5
  let main_cst_8 : FVec F S_ .f32 := constant S_ .f32 0x7F800000#32
  let main_v25 : FVec F S1x5 .f32 := broadcastInDim S1x5 ![] bcast_S_S1x5 main_cst_8
  let main_v26 : IVec S1x5 1 := cmpf .olt main_v24 main_v25
  let main_c_9 : IVec S_ 1 := constantI S_ 1 1#1
  let main_v27 : IVec S_ 1 := (fun x v => Host.reduce IntOp.andi x v reducesTo_S1x5_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4096x26x128 .f32) (main_arg1 : FVec F S1664x3328 .f32) (main_arg2 : FVec F S1664 .f32) (main_arg3 : FVec F S5x1664 .f32) (main_arg4 : FVec F S5 .f32) (main_arg5 : FVec F S1x5 .f32) (main_arg6 : FVec F S1 .f32) : IVec S_ 1 :=
  let main_v0 : FVec F S4096x26x128 .f32 := Host.absf main_arg0
  let main_cst : FVec F S_ .f32 := constant S_ .f32 0x7F800000#32
  let main_v1 : FVec F S4096x26x128 .f32 := broadcastInDim S4096x26x128 ![] bcast_S_S4096x26x128 main_cst
  let main_v2 : IVec S4096x26x128 1 := cmpf .olt main_v0 main_v1
  let main_c : IVec S_ 1 := constantI S_ 1 1#1
  let main_v3 : IVec S_ 1 := (fun x v => Host.reduce IntOp.andi x v reducesTo_S4096x26x128_S_d0_1_2 h_S_) main_v2 main_c
  let main_v4 : FVec F S1664x3328 .f32 := Host.absf main_arg1
  let main_cst_0 : FVec F S_ .f32 := constant S_ .f32 0x7F800000#32
  let main_v5 : FVec F S1664x3328 .f32 := broadcastInDim S1664x3328 ![] bcast_S_S1664x3328 main_cst_0
  let main_v6 : IVec S1664x3328 1 := cmpf .olt main_v4 main_v5
  let main_c_1 : IVec S_ 1 := constantI S_ 1 1#1
  let main_v7 : IVec S_ 1 := (fun x v => Host.reduce IntOp.andi x v reducesTo_S1664x3328_S_d0_1 h_S_) main_v6 main_c_1
  let main_v8 : IVec S_ 1 := andi main_v3 main_v7
  let main_v9 : FVec F S1664 .f32 := Host.absf main_arg2
  let main_cst_2 : FVec F S_ .f32 := constant S_ .f32 0x7F800000#32
  let main_v10 : FVec F S1664 .f32 := broadcastInDim S1664 ![] bcast_S_S1664 main_cst_2
  let main_v11 : IVec S1664 1 := cmpf .olt main_v9 main_v10
  let main_c_3 : IVec S_ 1 := constantI S_ 1 1#1
  let main_v12 : IVec S_ 1 := (fun x v => Host.reduce IntOp.andi x v reducesTo_S1664_S_d0 h_S_) main_v11 main_c_3
  let main_v13 : IVec S_ 1 := andi main_v8 main_v12
  let main_v14 : FVec F S5x1664 .f32 := Host.absf main_arg3
  let main_cst_4 : FVec F S_ .f32 := constant S_ .f32 0x7F800000#32
  let main_v15 : FVec F S5x1664 .f32 := broadcastInDim S5x1664 ![] bcast_S_S5x1664 main_cst_4
  let main_v16 : IVec S5x1664 1 := cmpf .olt main_v14 main_v15
  fn_part1 (F := F) main_arg4 main_arg5 main_arg6 main_v13 main_v16
-- ==== Kernel.lean ====
abbrev S4096x26x128 : Shape := ⟨3, ![4096, 26, 128]⟩
abbrev S1664x3328 : Shape := ⟨2, ![1664, 3328]⟩
abbrev S1664 : Shape := ⟨1, ![1664]⟩
abbrev S5x1664 : Shape := ⟨2, ![5, 1664]⟩
abbrev S5 : Shape := ⟨1, ![5]⟩
abbrev S1x5 : Shape := ⟨2, ![1, 5]⟩
abbrev S1 : Shape := ⟨1, ![1]⟩
abbrev S26x4096x128 : Shape := ⟨3, ![26, 4096, 128]⟩
abbrev S4096x1 : Shape := ⟨2, ![4096, 1]⟩
abbrev S26x512x128 : Shape := ⟨3, ![26, 512, 128]⟩
abbrev S512x1 : Shape := ⟨2, ![512, 1]⟩
abbrev S1664x5 : Shape := ⟨2, ![1664, 5]⟩
abbrev S5x1 : Shape := ⟨2, ![5, 1]⟩
abbrev S1x1664 : Shape := ⟨2, ![1, 1664]⟩
abbrev S1x1 : Shape := ⟨2, ![1, 1]⟩
abbrev S1x512x128 : Shape := ⟨3, ![1, 512, 128]⟩
abbrev S512x128 : Shape := ⟨2, ![512, 128]⟩
abbrev S512x3328 : Shape := ⟨2, ![512, 3328]⟩
abbrev S1024x3328 : Shape := ⟨2, ![1024, 3328]⟩
abbrev S512x1024 : Shape := ⟨2, ![512, 1024]⟩
abbrev S1x1024 : Shape := ⟨2, ![1, 1024]⟩
abbrev S1024x5 : Shape := ⟨2, ![1024, 5]⟩
abbrev S512x5 : Shape := ⟨2, ![512, 5]⟩
abbrev S640x3328 : Shape := ⟨2, ![640, 3328]⟩
abbrev S512x640 : Shape := ⟨2, ![512, 640]⟩
abbrev S1x640 : Shape := ⟨2, ![1, 640]⟩
abbrev S640x5 : Shape := ⟨2, ![640, 5]⟩

abbrev nBuf : Space → Nat
  | .hbm => 9
  | .vmem => 11
  | .smem => 0
  | _ => 0

abbrev bufTy : (tb : Table) → Fin (tcTables nBuf tb) → BufTy
  | .hbm, ⟨0, _⟩ => ⟨S4096x26x128, .f32⟩
  | .hbm, ⟨1, _⟩ => ⟨S1664x3328, .f32⟩
  | .hbm, ⟨2, _⟩ => ⟨S1664, .f32⟩
  | .hbm, ⟨3, _⟩ => ⟨S5x1664, .f32⟩
  | .hbm, ⟨4, _⟩ => ⟨S5, .f32⟩
  | .hbm, ⟨5, _⟩ => ⟨S1x5, .f32⟩
  | .hbm, ⟨6, _⟩ => ⟨S1, .f32⟩
  | .hbm, ⟨7, _⟩ => ⟨S26x4096x128, .f32⟩
  | .hbm, ⟨8, _⟩ => ⟨S4096x1, .f32⟩
  | .local _ .vmem, ⟨0, _⟩ => ⟨S26x512x128, .f32⟩
  | .local _ .vmem, ⟨1, _⟩ => ⟨S26x512x128, .f32⟩
  | .local _ .vmem, ⟨2, _⟩ => ⟨S1664x3328, .f32⟩
  | .local _ .vmem, ⟨3, _⟩ => ⟨S1664, .f32⟩
  | .local _ .vmem, ⟨4, _⟩ => ⟨S5x1664, .f32⟩
  | .local _ .vmem, ⟨5, _⟩ => ⟨S5, .f32⟩
  | .local _ .vmem, ⟨6, _⟩ => ⟨S1x5, .f32⟩
  | .local _ .vmem, ⟨7, _⟩ => ⟨S1, .f32⟩
  | .local _ .vmem, ⟨8, _⟩ => ⟨S512x1, .f32⟩
  | .local _ .vmem, ⟨9, _⟩ => ⟨S512x1, .f32⟩
  | .local _ .vmem, ⟨10, _⟩ => ⟨S1664x3328, .bf16⟩
  | _, _ => ⟨S4096x26x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S26x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1664x3328 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4096x26x128_S26x4096x128_1_0_2 : S4096x26x128.Transposes [1, 0, 2] S26x4096x128
  inb_S1664x3328_S1664x3328_0_0 : ∀ a, (![0, 0] : Fin 2 → Nat) a + S1664x3328.size a ≤ S1664x3328.size a
  h_S1664x3328 : 0 < S1664x3328.numel
  bitsLt_bf16_f32 : FTy.bits .bf16 < FTy.bits .f32
  shapeCasts_S1664x3328_S1664x3328 : S1664x3328.ShapeCasts S1664x3328
  packedbf16_S1664x3328_S1664x3328_0_0 : (Rect.unit (s := S1664x3328) ![0, 0] S1664x3328.size inb_S1664x3328_S1664x3328_0_0).PackedRows (EltTy.packing .bf16)
  inb_S5x1664_S5x1664_0_0 : ∀ a, (![0, 0] : Fin 2 → Nat) a + S5x1664.size a ≤ S5x1664.size a
  h_S5x1664 : 0 < S5x1664.numel
  transposes_S5x1664_p1_0_S1664x5 : S5x1664.Transposes [1, 0] S1664x5
  inb_S1x5_S1x5_0_0 : ∀ a, (![0, 0] : Fin 2 → Nat) a + S1x5.size a ≤ S1x5.size a
  h_S1x5 : 0 < S1x5.numel
  transposes_S1x5_p1_0_S5x1 : S1x5.Transposes [1, 0] S5x1
  inb_S1664_S1664_0 : ∀ a, (![0] : Fin 1 → Nat) a + S1664.size a ≤ S1664.size a
  h_S1664 : 0 < S1664.numel
  shapeCasts_S1664_S1x1664 : S1664.ShapeCasts S1x1664
  inb_S5_S5_0 : ∀ a, (![0] : Fin 1 → Nat) a + S5.size a ≤ S5.size a
  h_S5 : 0 < S5.numel
  shapeCasts_S5_S1x5 : S5.ShapeCasts S1x5
  inb_S1_S1_0 : ∀ a, (![0] : Fin 1 → Nat) a + S1.size a ≤ S1.size a
  h_S1 : 0 < S1.numel
  shapeCasts_S1_S1x1 : S1.ShapeCasts S1x1
  inb_S26x512x128_S1x512x128_0_0_0 : ∀ a, (![0, 0, 0] : Fin 3 → Nat) a + S1x512x128.size a ≤ S26x512x128.size a
  h_S1x512x128 : 0 < S1x512x128.numel
  shapeCasts_S1x512x128_S512x128 : S1x512x128.ShapeCasts S512x128
  inb_S26x512x128_S1x512x128_1_0_0 : ∀ a, (![1, 0, 0] : Fin 3 → Nat) a + S1x512x128.size a ≤ S26x512x128.size a
  inb_S26x512x128_S1x512x128_2_0_0 : ∀ a, (![2, 0, 0] : Fin 3 → Nat) a + S1x512x128.size a ≤ S26x512x128.size a
  inb_S26x512x128_S1x512x128_3_0_0 : ∀ a, (![3, 0, 0] : Fin 3 → Nat) a + S1x512x128.size a ≤ S26x512x128.size a
  inb_S26x512x128_S1x512x128_4_0_0 : ∀ a, (![4, 0, 0] : Fin 3 → Nat) a + S1x512x128.size a ≤ S26x512x128.size a
  inb_S26x512x128_S1x512x128_5_0_0 : ∀ a, (![5, 0, 0] : Fin 3 → Nat) a + S1x512x128.size a ≤ S26x512x128.size a
  inb_S26x512x128_S1x512x128_6_0_0 : ∀ a, (![6, 0, 0] : Fin 3 → Nat) a + S1x512x128.size a ≤ S26x512x128.size a
  inb_S26x512x128_S1x512x128_7_0_0 : ∀ a, (![7, 0, 0] : Fin 3 → Nat) a + S1x512x128.size a ≤ S26x512x128.size a
  inb_S26x512x128_S1x512x128_8_0_0 : ∀ a, (![8, 0, 0] : Fin 3 → Nat) a + S1x512x128.size a ≤ S26x512x128.size a
  inb_S26x512x128_S1x512x128_9_0_0 : ∀ a, (![9, 0, 0] : Fin 3 → Nat) a + S1x512x128.size a ≤ S26x512x128.size a
  inb_S26x512x128_S1x512x128_10_0_0 : ∀ a, (![10, 0, 0] : Fin 3 → Nat) a + S1x512x128.size a ≤ S26x512x128.size a
  inb_S26x512x128_S1x512x128_11_0_0 : ∀ a, (![11, 0, 0] : Fin 3 → Nat) a + S1x512x128.size a ≤ S26x512x128.size a
  inb_S26x512x128_S1x512x128_12_0_0 : ∀ a, (![12, 0, 0] : Fin 3 → Nat) a + S1x512x128.size a ≤ S26x512x128.size a
  inb_S26x512x128_S1x512x128_13_0_0 : ∀ a, (![13, 0, 0] : Fin 3 → Nat) a + S1x512x128.size a ≤ S26x512x128.size a
  inb_S26x512x128_S1x512x128_14_0_0 : ∀ a, (![14, 0, 0] : Fin 3 → Nat) a + S1x512x128.size a ≤ S26x512x128.size a
  inb_S26x512x128_S1x512x128_15_0_0 : ∀ a, (![15, 0, 0] : Fin 3 → Nat) a + S1x512x128.size a ≤ S26x512x128.size a
  inb_S26x512x128_S1x512x128_16_0_0 : ∀ a, (![16, 0, 0] : Fin 3 → Nat) a + S1x512x128.size a ≤ S26x512x128.size a
  inb_S26x512x128_S1x512x128_17_0_0 : ∀ a, (![17, 0, 0] : Fin 3 → Nat) a + S1x512x128.size a ≤ S26x512x128.size a
  inb_S26x512x128_S1x512x128_18_0_0 : ∀ a, (![18, 0, 0] : Fin 3 → Nat) a + S1x512x128.size a ≤ S26x512x128.size a
  inb_S26x512x128_S1x512x128_19_0_0 : ∀ a, (![19, 0, 0] : Fin 3 → Nat) a + S1x512x128.size a ≤ S26x512x128.size a
  inb_S26x512x128_S1x512x128_20_0_0 : ∀ a, (![20, 0, 0] : Fin 3 → Nat) a + S1x512x128.size a ≤ S26x512x128.size a
  inb_S26x512x128_S1x512x128_21_0_0 : ∀ a, (![21, 0, 0] : Fin 3 → Nat) a + S1x512x128.size a ≤ S26x512x128.size a
  inb_S26x512x128_S1x512x128_22_0_0 : ∀ a, (![22, 0, 0] : Fin 3 → Nat) a + S1x512x128.size a ≤ S26x512x128.size a
  inb_S26x512x128_S1x512x128_23_0_0 : ∀ a, (![23, 0, 0] : Fin 3 → Nat) a + S1x512x128.size a ≤ S26x512x128.size a
  inb_S26x512x128_S1x512x128_24_0_0 : ∀ a, (![24, 0, 0] : Fin 3 → Nat) a + S1x512x128.size a ≤ S26x512x128.size a
  inb_S26x512x128_S1x512x128_25_0_0 : ∀ a, (![25, 0, 0] : Fin 3 → Nat) a + S1x512x128.size a ≤ S26x512x128.size a
  concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3328_d1 : Shape.Concatenates [S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128] S512x3328 1
  inb_S1664x3328_S1024x3328_0_0 : ∀ a, (![0, 0] : Fin 2 → Nat) a + S1024x3328.size a ≤ S1664x3328.size a
  h_S1024x3328 : 0 < S1024x3328.numel
  slices_S1x1664_o0_0_S1x1024 : S1x1664.Slices ![0, 0] S1x1024
  broadcasts_S1x1024_S512x1024 : S1x1024.Broadcasts S512x1024
  slices_S1664x5_o0_0_S1024x5 : S1664x5.Slices ![0, 0] S1024x5
  inb_S1664x3328_S640x3328_1024_0 : ∀ a, (![1024, 0] : Fin 2 → Nat) a + S640x3328.size a ≤ S1664x3328.size a
  h_S640x3328 : 0 < S640x3328.numel
  slices_S1x1664_o0_1024_S1x640 : S1x1664.Slices ![0, 1024] S1x640
  broadcasts_S1x640_S512x640 : S1x640.Broadcasts S512x640
  slices_S1664x5_o1024_0_S640x5 : S1664x5.Slices ![1024, 0] S640x5
  broadcasts_S1x5_S512x5 : S1x5.Broadcasts S512x5
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x3328_S1024x3328_S512x1024_1_1_0_0_n_n_wf : DotDims.WF S512x3328 S1024x3328 S512x1024 [1] [1] [0] [0] [] []
  dot_S512x1024_S1024x5_S512x5_1_0_0_1_n_n_wf : DotDims.WF S512x1024 S1024x5 S512x5 [1] [0] [0] [1] [] []
  dot_S512x3328_S640x3328_S512x640_1_1_0_0_n_n_wf : DotDims.WF S512x3328 S640x3328 S512x640 [1] [1] [0] [0] [] []
  dot_S512x640_S640x5_S512x5_1_0_0_1_n_n_wf : DotDims.WF S512x640 S640x5 S512x5 [1] [0] [0] [1] [] []
  dot_S512x5_S5x1_S512x1_1_0_0_1_n_n_wf : DotDims.WF S512x5 S5x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S26x512x128.size a ≤ S26x4096x128.size a
  hwx0_0 : ∀ i : grid0.Coords, EltTy.bits .f32 = 32 ∨ (Rect.block (s := S26x4096x128) S26x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1664x3328.size a ≤ S1664x3328.size a
  hwx0_1 : ∀ i : grid0.Coords, EltTy.bits .f32 = 32 ∨ (Rect.block (s := S1664x3328) S1664x3328.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1664.size a ≤ S1664.size a
  hwx0_2 : ∀ i : grid0.Coords, EltTy.bits .f32 = 32 ∨ (Rect.block (s := S1664) S1664.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x1664.size a ≤ S5x1664.size a
  hwx0_3 : ∀ i : grid0.Coords, EltTy.bits .f32 = 32 ∨ (Rect.block (s := S5x1664) S5x1664.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5.size a ≤ S5.size a
  hwx0_4 : ∀ i : grid0.Coords, EltTy.bits .f32 = 32 ∨ (Rect.block (s := S5) S5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x5.size a ≤ S1x5.size a
  hwx0_5 : ∀ i : grid0.Coords, EltTy.bits .f32 = 32 ∨ (Rect.block (s := S1x5) S1x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)

variable [Facts₀]

def dot_S512x3328_S1024x3328_S512x1024_1_1_0_0_n_n : DotDims S512x3328 S1024x3328 S512x1024 where
  lhsContracting := [1]
  rhsContracting := [1]
  lhsNonContracting := [0]
  rhsNonContracting := [0]
  lhsBatch := []
  rhsBatch := []
  wf := dot_S512x3328_S1024x3328_S512x1024_1_1_0_0_n_n_wf
def dot_S512x1024_S1024x5_S512x5_1_0_0_1_n_n : DotDims S512x1024 S1024x5 S512x5 where
  lhsContracting := [1]
  rhsContracting := [0]
  lhsNonContracting := [0]
  rhsNonContracting := [1]
  lhsBatch := []
  rhsBatch := []
  wf := dot_S512x1024_S1024x5_S512x5_1_0_0_1_n_n_wf
def dot_S512x3328_S640x3328_S512x640_1_1_0_0_n_n : DotDims S512x3328 S640x3328 S512x640 where
  lhsContracting := [1]
  rhsContracting := [1]
  lhsNonContracting := [0]
  rhsNonContracting := [0]
  lhsBatch := []
  rhsBatch := []
  wf := dot_S512x3328_S640x3328_S512x640_1_1_0_0_n_n_wf
def dot_S512x640_S640x5_S512x5_1_0_0_1_n_n : DotDims S512x640 S640x5 S512x5 where
  lhsContracting := [1]
  rhsContracting := [0]
  lhsNonContracting := [0]
  rhsNonContracting := [1]
  lhsBatch := []
  rhsBatch := []
  wf := dot_S512x640_S640x5_S512x5_1_0_0_1_n_n_wf
def dot_S512x5_S5x1_S512x1_1_0_0_1_n_n : DotDims S512x5 S5x1 S512x1 where
  lhsContracting := [1]
  rhsContracting := [0]
  lhsNonContracting := [0]
  rhsNonContracting := [1]
  lhsBatch := []
  rhsBatch := []
  wf := dot_S512x5_S5x1_S512x1_1_0_0_1_n_n_wf

abbrev win0_0 : Pipeline.Window sig grid0 :=
  Pipeline.Window.ofSpec (Memref.whole main_v0) S26x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1664x3328.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1664.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x1664.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x26x128 : Shape := ⟨3, ![4096, 26, 128]⟩
abbrev S1664x3328 : Shape := ⟨2, ![1664, 3328]⟩
abbrev S1664 : Shape := ⟨1, ![1664]⟩
abbrev S5x1664 : Shape := ⟨2, ![5, 1664]⟩
abbrev S5 : Shape := ⟨1, ![5]⟩
abbrev S1x5 : Shape := ⟨2, ![1, 5]⟩
abbrev S1 : Shape := ⟨1, ![1]⟩
abbrev S4096x3328 : Shape := ⟨2, ![4096, 3328]⟩
abbrev S3328x1664 : Shape := ⟨2, ![3328, 1664]⟩
abbrev S4096x1664 : Shape := ⟨2, ![4096, 1664]⟩
abbrev S1x1664 : Shape := ⟨2, ![1, 1664]⟩
abbrev S_ : Shape := ⟨0, ![]⟩
abbrev S1664x5 : Shape := ⟨2, ![1664, 5]⟩
abbrev S4096x5 : Shape := ⟨2, ![4096, 5]⟩
abbrev S5x1 : Shape := ⟨2, ![5, 1]⟩
abbrev S4096x1 : Shape := ⟨2, ![4096, 1]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x26x128, .f32⟩
  | .hbm, ⟨1, _⟩ => ⟨S1664x3328, .f32⟩
  | .hbm, ⟨2, _⟩ => ⟨S1664, .f32⟩
  | .hbm, ⟨3, _⟩ => ⟨S5x1664, .f32⟩
  | .hbm, ⟨4, _⟩ => ⟨S5, .f32⟩
  | .hbm, ⟨5, _⟩ => ⟨S1x5, .f32⟩
  | .hbm, ⟨6, _⟩ => ⟨S1, .f32⟩
  | .hbm, ⟨7, _⟩ => ⟨S4096x3328, .f32⟩
  | .hbm, ⟨8, _⟩ => ⟨S3328x1664, .f32⟩
  | .hbm, ⟨9, _⟩ => ⟨S4096x1664, .f32⟩
  | .hbm, ⟨10, _⟩ => ⟨S1x1664, .f32⟩
  | .hbm, ⟨11, _⟩ => ⟨S4096x1664, .f32⟩
  | .hbm, ⟨12, _⟩ => ⟨S4096x1664, .f32⟩
  | .hbm, ⟨13, _⟩ => ⟨S_, .f32⟩
  | .hbm, ⟨14, _⟩ => ⟨S4096x1664, .f32⟩
  | .hbm, ⟨15, _⟩ => ⟨S4096x1664, .f32⟩
  | .hbm, ⟨16, _⟩ => ⟨S1664x5, .f32⟩
  | .hbm, ⟨17, _⟩ => ⟨S4096x5, .f32⟩
  | .hbm, ⟨18, _⟩ => ⟨S1x5, .f32⟩
  | .hbm, ⟨19, _⟩ => ⟨S4096x5, .f32⟩
  | .hbm, ⟨20, _⟩ => ⟨S4096x5, .f32⟩
  | .hbm, ⟨21, _⟩ => ⟨S_, .f32⟩
  | .hbm, ⟨22, _⟩ => ⟨S4096x5, .f32⟩
  | .hbm, ⟨23, _⟩ => ⟨S4096x5, .f32⟩
  | .hbm, ⟨24, _⟩ => ⟨S5x1, .f32⟩
  | .hbm, ⟨25, _⟩ => ⟨S4096x1, .f32⟩
  | .hbm, ⟨26, _⟩ => ⟨S1x1, .f32⟩
  | .hbm, ⟨27, _⟩ => ⟨S4096x1, .f32⟩
  | .hbm, ⟨28, _⟩ => ⟨S4096x1, .f32⟩
  | _, _ => ⟨S4096x26x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  shapeCasts_S4096x26x128_S4096x3328 : S4096x26x128.ShapeCasts S4096x3328
  transposes_S1664x3328_S3328x1664_1_0 : S1664x3328.Transposes [1, 0] S3328x1664
  bcast_S1664_S1x1664_1 : S1664.BroadcastsInDim S1x1664 (![1] : Fin 1 → Fin S1x1664.rank)
  bcast_S1x1664_S4096x1664_0_1 : S1x1664.BroadcastsInDim S4096x1664 (![0, 1] : Fin 2 → Fin S4096x1664.rank)
  bcast_S_S4096x1664 : S_.BroadcastsInDim S4096x1664 (![] : Fin 0 → Fin S4096x1664.rank)
  transposes_S5x1664_S1664x5_1_0 : S5x1664.Transposes [1, 0] S1664x5
  bcast_S5_S1x5_1 : S5.BroadcastsInDim S1x5 (![1] : Fin 1 → Fin S1x5.rank)
  bcast_S1x5_S4096x5_0_1 : S1x5.BroadcastsInDim S4096x5 (![0, 1] : Fin 2 → Fin S4096x5.rank)
  bcast_S_S4096x5 : S_.BroadcastsInDim S4096x5 (![] : Fin 0 → Fin S4096x5.rank)
  transposes_S1x5_S5x1_1_0 : S1x5.Transposes [1, 0] S5x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x3328_S3328x1664_S4096x1664_1_0_0_1_n_n_wf : DotDims.WF S4096x3328 S3328x1664 S4096x1664 [1] [0] [0] [1] [] []
  dot_S4096x1664_S1664x5_S4096x5_1_0_0_1_n_n_wf : DotDims.WF S4096x1664 S1664x5 S4096x5 [1] [0] [0] [1] [] []
  dot_S4096x5_S5x1_S4096x1_1_0_0_1_n_n_wf : DotDims.WF S4096x5 S5x1 S4096x1 [1] [0] [0] [1] [] []

variable [Facts₀]

def dot_S4096x3328_S3328x1664_S4096x1664_1_0_0_1_n_n : DotDims S4096x3328 S3328x1664 S4096x1664 where
  lhsContracting := [1]
  rhsContracting := [0]
  lhsNonContracting := [0]
  rhsNonContracting := [1]
  lhsBatch := []
  rhsBatch := []
  wf := dot_S4096x3328_S3328x1664_S4096x1664_1_0_0_1_n_n_wf
def dot_S4096x1664_S1664x5_S4096x5_1_0_0_1_n_n : DotDims S4096x1664 S1664x5 S4096x5 where
  lhsContracting := [1]
  rhsContracting := [0]
  lhsNonContracting := [0]
  rhsNonContracting := [1]
  lhsBatch := []
  rhsBatch := []
  wf := dot_S4096x1664_S1664x5_S4096x5_1_0_0_1_n_n_wf
def dot_S4096x5_S5x1_S4096x1_1_0_0_1_n_n : DotDims S4096x5 S5x1 S4096x1 where
  lhsContracting := [1]
  rhsContracting := [0]
  lhsNonContracting := [0]
  rhsNonContracting := [1]
  lhsBatch := []
  rhsBatch := []
  wf := dot_S4096x5_S5x1_S4096x1_1_0_0_1_n_n_wf

class Facts : Prop extends Facts₀ where

variable [Facts]
-- ==== Proof.KernelPieces.lean ====
/-
  What one grid point's body leaves, as values.

  The body reads its [26, 512, 128] input block one feature slab at a time, drops the slab's unit axis, and lays the
  26 slabs side by side into the [512, 3328] activation tile; it reads the weights of the first layer from a scratch
  buffer (rows 0–1023 and rows 1024–1663 separately), and stores one [512, 1] block.  At the grid's first point the
  body first fills the scratch buffer from the first layer's weight block and then reads it back; at every later
  point the scratch buffer holds what the point before left.  So in both cases the stored block is ONE term,
  `blockOut`, of the input block, the small operands and the scratch contents `w`: at the first point `w` is the
  weight block the body just stored, afterwards it is what the scratch buffer held on entry.
-/
import proofs.«122074_g75342316306484_cont_9to1c4b_469_27_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- The activation tile: the input block's 26 feature slabs, each [512, 128], side by side. -/
def tile (x0 : Vec F S26x512x128 .f32) : FVec F S512x3328 .bf16 :=
  k0_pay1 (k0_pay9 (View.ld x0 (Rect.unit ![0, 0, 0] S1x512x128.size inb_S26x512x128_S1x512x128_0_0_0)))
    (k0_pay10 (View.ld x0 (Rect.unit ![1, 0, 0] S1x512x128.size inb_S26x512x128_S1x512x128_1_0_0)))
    (k0_pay11 (View.ld x0 (Rect.unit ![2, 0, 0] S1x512x128.size inb_S26x512x128_S1x512x128_2_0_0)))
    (k0_pay12 (View.ld x0 (Rect.unit ![3, 0, 0] S1x512x128.size inb_S26x512x128_S1x512x128_3_0_0)))
    (k0_pay13 (View.ld x0 (Rect.unit ![4, 0, 0] S1x512x128.size inb_S26x512x128_S1x512x128_4_0_0)))
    (k0_pay14 (View.ld x0 (Rect.unit ![5, 0, 0] S1x512x128.size inb_S26x512x128_S1x512x128_5_0_0)))
    (k0_pay15 (View.ld x0 (Rect.unit ![6, 0, 0] S1x512x128.size inb_S26x512x128_S1x512x128_6_0_0)))
    (k0_pay16 (View.ld x0 (Rect.unit ![7, 0, 0] S1x512x128.size inb_S26x512x128_S1x512x128_7_0_0)))
    (k0_pay17 (View.ld x0 (Rect.unit ![8, 0, 0] S1x512x128.size inb_S26x512x128_S1x512x128_8_0_0)))
    (k0_pay18 (View.ld x0 (Rect.unit ![9, 0, 0] S1x512x128.size inb_S26x512x128_S1x512x128_9_0_0)))
    (k0_pay19 (View.ld x0 (Rect.unit ![10, 0, 0] S1x512x128.size inb_S26x512x128_S1x512x128_10_0_0)))
    (k0_pay20 (View.ld x0 (Rect.unit ![11, 0, 0] S1x512x128.size inb_S26x512x128_S1x512x128_11_0_0)))
    (k0_pay21 (View.ld x0 (Rect.unit ![12, 0, 0] S1x512x128.size inb_S26x512x128_S1x512x128_12_0_0)))
    (k0_pay22 (View.ld x0 (Rect.unit ![13, 0, 0] S1x512x128.size inb_S26x512x128_S1x512x128_13_0_0)))
    (k0_pay23 (View.ld x0 (Rect.unit ![14, 0, 0] S1x512x128.size inb_S26x512x128_S1x512x128_14_0_0)))
    (k0_pay24 (View.ld x0 (Rect.unit ![15, 0, 0] S1x512x128.size inb_S26x512x128_S1x512x128_15_0_0)))
    (k0_pay25 (View.ld x0 (Rect.unit ![16, 0, 0] S1x512x128.size inb_S26x512x128_S1x512x128_16_0_0)))
    (k0_pay26 (View.ld x0 (Rect.unit ![17, 0, 0] S1x512x128.size inb_S26x512x128_S1x512x128_17_0_0)))
    (k0_pay27 (View.ld x0 (Rect.unit ![18, 0, 0] S1x512x128.size inb_S26x512x128_S1x512x128_18_0_0)))
    (k0_pay28 (View.ld x0 (Rect.unit ![19, 0, 0] S1x512x128.size inb_S26x512x128_S1x512x128_19_0_0)))
    (k0_pay29 (View.ld x0 (Rect.unit ![20, 0, 0] S1x512x128.size inb_S26x512x128_S1x512x128_20_0_0)))
    (k0_pay30 (View.ld x0 (Rect.unit ![21, 0, 0] S1x512x128.size inb_S26x512x128_S1x512x128_21_0_0)))
    (k0_pay31 (View.ld x0 (Rect.unit ![22, 0, 0] S1x512x128.size inb_S26x512x128_S1x512x128_22_0_0)))
    (k0_pay32 (View.ld x0 (Rect.unit ![23, 0, 0] S1x512x128.size inb_S26x512x128_S1x512x128_23_0_0)))
    (k0_pay33 (View.ld x0 (Rect.unit ![24, 0, 0] S1x512x128.size inb_S26x512x128_S1x512x128_24_0_0)))
    (View.ld x0 (Rect.unit ![25, 0, 0] S1x512x128.size inb_S26x512x128_S1x512x128_25_0_0))

/-- The block a point stores, of its input block `x0`, the biases and small weights, and the scratch contents `w`. -/
def blockOut (x0 : Vec F S26x512x128 .f32) (x2 : Vec F S1664 .f32) (x3 : Vec F S5x1664 .f32) (x4 : Vec F S5 .f32)
    (x5 : Vec F S1x5 .f32) (x6 : Vec F S1 .f32) (w : Vec F S1664x3328 .bf16) : FVec F S512x1 .f32 :=
  k0_pay2 (k0_pay4 x3) (k0_pay5 x5) (k0_pay6 x2) (k0_pay7 x4) (k0_pay8 x6) (tile x0)
    (View.ld w (Rect.unit ![0, 0] S1024x3328.size inb_S1664x3328_S1024x3328_0_0))
    (View.ld w (Rect.unit ![1024, 0] S640x3328.size inb_S1664x3328_S640x3328_1024_0))

/-- At the first point the scratch buffer ends holding the first layer's weight block, cast. -/
theorem scratch_first (c : Dev nD) (i : grid0.Coords) (arg1 : Memref sig .tc .vmem S26x512x128 .f32) (harg1 : arg1.IsWhole) (arg2 : Memref sig .tc .vmem S1664x3328 .f32) (harg2 : arg2.IsWhole) (arg3 : Memref sig .tc .vmem S1664 .f32) (harg3 : arg3.IsWhole) (arg4 : Memref sig .tc .vmem S5x1664 .f32) (harg4 : arg4.IsWhole) (arg5 : Memref sig .tc .vmem S5 .f32) (harg5 : arg5.IsWhole) (arg6 : Memref sig .tc .vmem S1x5 .f32) (harg6 : arg6.IsWhole) (arg7 : Memref sig .tc .vmem S1 .f32) (harg7 : arg7.IsWhole) (arg8 : Memref sig .tc .vmem S512x1 .f32) (harg8 : arg8.IsWhole) (arg9 : Memref sig .tc .vmem S1664x3328 .bf16) (harg9 : arg9.IsWhole) (hc0 : cond0_0 i)
    (x0 : Vec F S26x512x128 .f32) (x1 : Vec F S1664x3328 .f32) (x2 : Vec F S1664 .f32) (x3 : Vec F S5x1664 .f32) (x4 : Vec F S5 .f32) (x5 : Vec F S1x5 .f32) (x6 : Vec F S1 .f32) :
    sout0_A_0 c i arg1 harg1 arg2 harg2 arg3 harg3 arg4 harg4 arg5 harg5 arg6 harg6 arg7 harg7 arg8 harg8 arg9 harg9 hc0 x0 x1 x2 x3 x4 x5 x6 = k0_pay3 x1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_unit_zero hz2]
  simp only [View.readAt_eq_ld, harg2.read_unread, View.ld_unit_zero (S := S1664x3328) hz2]

/-- At a later point the stored block is `blockOut` over the scratch contents found on entry. -/
theorem out_later (c : Dev nD) (i : grid0.Coords) (arg1 : Memref sig .tc .vmem S26x512x128 .f32) (harg1 : arg1.IsWhole) (arg2 : Memref sig .tc .vmem S1664x3328 .f32) (harg2 : arg2.IsWhole) (arg3 : Memref sig .tc .vmem S1664 .f32) (harg3 : arg3.IsWhole) (arg4 : Memref sig .tc .vmem S5x1664 .f32) (harg4 : arg4.IsWhole) (arg5 : Memref sig .tc .vmem S5 .f32) (harg5 : arg5.IsWhole) (arg6 : Memref sig .tc .vmem S1x5 .f32) (harg6 : arg6.IsWhole) (arg7 : Memref sig .tc .vmem S1 .f32) (harg7 : arg7.IsWhole) (arg8 : Memref sig .tc .vmem S512x1 .f32) (harg8 : arg8.IsWhole) (arg9 : Memref sig .tc .vmem S1664x3328 .bf16) (harg9 : arg9.IsWhole) (hc0 : ¬cond0_0 i)
    (x0 : Vec F S26x512x128 .f32) (x1 : Vec F S1664x3328 .f32) (x2 : Vec F S1664 .f32) (x3 : Vec F S5x1664 .f32) (x4 : Vec F S5 .f32) (x5 : Vec F S1x5 .f32) (x6 : Vec F S1 .f32) (xs0 : Vec F S1664x3328 .bf16) :
    out0_B_7 c i arg1 harg1 arg2 harg2 arg3 harg3 arg4 harg4 arg5 harg5 arg6 harg6 arg7 harg7 arg8 harg8 arg9 harg9 hc0 x0 x1 x2 x3 x4 x5 x6 xs0 = blockOut x0 x2 x3 x4 x5 x6 xs0 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  sl_unfold_words
  rw [View.canon_unit_zero hz2]
  simp only [View.readAt_eq_ld, harg1.read_unread, harg3.read_unread, harg4.read_unread, harg5.read_unread,
    harg6.read_unread, harg7.read_unread, harg9.read_unread, View.ld_unit_zero (S := S5x1664) hz2,
    View.ld_unit_zero (S := S1x5) hz2, View.ld_unit_zero (S := S1664) hz1, View.ld_unit_zero (S := S5) hz1,
    View.ld_unit_zero (S := S1) hz1]
  rfl

/-- At the first point the stored block is `blockOut` over the weight block the body has just stored. -/
theorem out_first (c : Dev nD) (i : grid0.Coords) (arg1 : Memref sig .tc .vmem S26x512x128 .f32) (harg1 : arg1.IsWhole) (arg2 : Memref sig .tc .vmem S1664x3328 .f32) (harg2 : arg2.IsWhole) (arg3 : Memref sig .tc .vmem S1664 .f32) (harg3 : arg3.IsWhole) (arg4 : Memref sig .tc .vmem S5x1664 .f32) (harg4 : arg4.IsWhole) (arg5 : Memref sig .tc .vmem S5 .f32) (harg5 : arg5.IsWhole) (arg6 : Memref sig .tc .vmem S1x5 .f32) (harg6 : arg6.IsWhole) (arg7 : Memref sig .tc .vmem S1 .f32) (harg7 : arg7.IsWhole) (arg8 : Memref sig .tc .vmem S512x1 .f32) (harg8 : arg8.IsWhole) (arg9 : Memref sig .tc .vmem S1664x3328 .bf16) (harg9 : arg9.IsWhole) (hc0 : cond0_0 i)
    (x0 : Vec F S26x512x128 .f32) (x1 : Vec F S1664x3328 .f32) (x2 : Vec F S1664 .f32) (x3 : Vec F S5x1664 .f32) (x4 : Vec F S5 .f32) (x5 : Vec F S1x5 .f32) (x6 : Vec F S1 .f32) :
    out0_A_7 c i arg1 harg1 arg2 harg2 arg3 harg3 arg4 harg4 arg5 harg5 arg6 harg6 arg7 harg7 arg8 harg8 arg9 harg9 hc0 x0 x1 x2 x3 x4 x5 x6 = blockOut x0 x2 x3 x4 x5 x6 (k0_pay3 x1) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_unit_zero hz2]
  simp only [View.readAt_eq_ld, harg1.read_unread, harg2.read_unread, harg3.read_unread, harg4.read_unread,
    harg5.read_unread, harg6.read_unread, harg7.read_unread, View.ld_unit_zero (S := S5x1664) hz2,
    View.ld_unit_zero (S := S1x5) hz2, View.ld_unit_zero (S := S1664) hz1, View.ld_unit_zero (S := S5) hz1,
    View.ld_unit_zero (S := S1) hz1, View.ld_unit_zero (S := S1664x3328) hz2]
  have hcov : ∀ y : S1664x3328.Idx, ∃ p ∈ [(⟨Rect.unit ![0, 0] S1664x3328.size inb_S1664x3328_S1664x3328_0_0, k0_pay3 x1⟩ :
      View.Piece (Elt F) S1664x3328 .bf16)], y ∈ p.1.set :=
    fun y => ⟨_, List.mem_singleton_self _, View.mem_set_unit_zero hz2 inb_S1664x3328_S1664x3328_0_0 y⟩
  rw [View.readCov_eq_canon_ld _ _ _ hcov, View.readCov_eq_canon_ld _ _ _ hcov, View.canon_unit_zero hz2]
  rfl

end Cert.KernelIdeal.Pieces

end
-- ==== Proof.MlpSpec.lean ====
/-
  The function both programs compute, stated once over the extended reals.

  A row of the input, x ∈ ℝ̄^3328, goes through three affine layers with a rectifier after the first two:
      h¹ⱼ = max (∑ₖ xₖ · W¹ⱼₖ + b¹ⱼ) 0        (j < 1664)
      h²_q = max (∑ⱼ h¹ⱼ · W²_qⱼ + b²_q) 0     (q < 5)
      y    = ∑_q h²_q · W³₀_q + b³₀
  and the input's row r is the [26, 128] slab of the argument at r, read feature after feature: its column k is
  feature k / 128, lane k % 128.  The zero the rectifiers compare against is kept as the float word both programs
  write, never evaluated.

  The one law the two programs differ by is here too: a sum over 1664 indices is the sum over the first 1024 plus
  the sum over the remaining 640, in any additive commutative monoid (no finiteness enters).
-/
import Idealize.ShloMosaic.PureOps.Ideal
import Idealize.ShloMosaic.Lib.ValueIdx

noncomputable section

open scoped BigOperators

namespace Mlp

open Idealize.ShloMosaic Idealize.ShloMosaic.ValueIdx

/-- The rectifier's zero: the float word `+0.0`. -/
abbrev zero : EReal := Ideal.ofBits .f32 0x00000000#32

/-- Column `k` of a flattened row is feature `k / 128` … -/
abbrev feat (k : Fin 3328) : Fin 26 := ⟨k.val / 128, by have := k.isLt; omega⟩
/-- … lane `k % 128`. -/
abbrev lane (k : Fin 3328) : Fin 128 := ⟨k.val % 128, by omega⟩

/-- First hidden layer at unit `j`, of a row `x`. -/
def hidden1 (W1 : (⟨2, ![1664, 3328]⟩ : Shape).Idx → EReal) (b1 : (⟨1, ![1664]⟩ : Shape).Idx → EReal)
    (x : Fin 3328 → EReal) (j : Fin 1664) : EReal :=
  max ((∑ k : Fin 3328, x k * W1 (ix2 j k)) + b1 (ix1 j)) zero

/-- Second hidden layer at unit `q`. -/
def hidden2 (W1 : (⟨2, ![1664, 3328]⟩ : Shape).Idx → EReal) (b1 : (⟨1, ![1664]⟩ : Shape).Idx → EReal)
    (W2 : (⟨2, ![5, 1664]⟩ : Shape).Idx → EReal) (b2 : (⟨1, ![5]⟩ : Shape).Idx → EReal)
    (x : Fin 3328 → EReal) (q : Fin 5) : EReal :=
  max ((∑ j : Fin 1664, hidden1 W1 b1 x j * W2 (ix2 q j)) + b2 (ix1 q)) zero

/-- The output of a row. -/
def outRow (W1 : (⟨2, ![1664, 3328]⟩ : Shape).Idx → EReal) (b1 : (⟨1, ![1664]⟩ : Shape).Idx → EReal)
    (W2 : (⟨2, ![5, 1664]⟩ : Shape).Idx → EReal) (b2 : (⟨1, ![5]⟩ : Shape).Idx → EReal)
    (W3 : (⟨2, ![1, 5]⟩ : Shape).Idx → EReal) (b3 : (⟨1, ![1]⟩ : Shape).Idx → EReal)
    (x : Fin 3328 → EReal) : EReal :=
  (∑ q : Fin 5, hidden2 W1 b1 W2 b2 x q * W3 (ix2 (0 : Fin 1) q)) + b3 (ix1 (0 : Fin 1))

/-- Row `r` of the argument `[4096, 26, 128]`, flattened feature after feature. -/
def flatRow (X : (⟨3, ![4096, 26, 128]⟩ : Shape).Idx → EReal) (r : Fin 4096) : Fin 3328 → EReal :=
  fun k => X (ix3 r (feat k) (lane k))

/-- The whole result `[4096, 1]` as one function of the seven arguments. -/
def result (X : (⟨3, ![4096, 26, 128]⟩ : Shape).Idx → EReal)
    (W1 : (⟨2, ![1664, 3328]⟩ : Shape).Idx → EReal) (b1 : (⟨1, ![1664]⟩ : Shape).Idx → EReal)
    (W2 : (⟨2, ![5, 1664]⟩ : Shape).Idx → EReal) (b2 : (⟨1, ![5]⟩ : Shape).Idx → EReal)
    (W3 : (⟨2, ![1, 5]⟩ : Shape).Idx → EReal) (b3 : (⟨1, ![1]⟩ : Shape).Idx → EReal) :
    (⟨2, ![4096, 1]⟩ : Shape).Idx → EReal :=
  fun i => outRow W1 b1 W2 b2 W3 b3 (flatRow X (i 0))

/-- A sum over 1664 indices is the sum over the first 1024 plus the sum over the last 640. -/
theorem sum_1664_split {M : Type*} [AddCommMonoid M] (f : Fin 1664 → M) :
    ∑ j : Fin 1664, f j
      = (∑ j : Fin 1024, f ⟨j.val, by have := j.isLt; omega⟩)
        + ∑ j : Fin 640, f ⟨1024 + j.val, by have := j.isLt; omega⟩ := by
  have h := Fin.sum_univ_add (a := 1024) (b := 640) (f : Fin (1024 + 640) → M)
  rw [h]
  rfl

end Mlp

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.KernelRow.lean ====
/-
  One stored block, read at an index, at the extended reals.

  Row p of the activation tile is the input block's row p of every feature slab in turn: column k is feature k / 128,
  lane k % 128 (26 equal pieces joined along the columns).  With the scratch contents `w` as the first layer's
  weights, entry (p, 0) of the stored block is `Mlp.outRow` of that row — once the second layer's contraction, which
  the body computes as a sum over units 0–1023 plus a sum over units 1024–1663, is put back together
  (`Mlp.sum_1664_split`).  Format changes are the identity here, a matrix product into a zero accumulator is the
  plain sum over the contracted index, and a bias laid out as a row and copied down the rows reads the bias vector at
  the column.
-/
import proofs.«122074_g75342316306484_cont_9to1c4b_469_27_alg».proof.Proof.KernelPieces
import proofs.«122074_g75342316306484_cont_9to1c4b_469_27_alg».proof.Proof.MlpSpec
import proofs.«122074_g75342316306484_cont_9to1c4b_469_27_alg».proof.Proof.LibDotRows
import proofs.«122074_g75342316306484_cont_9to1c4b_469_27_alg».proof.Proof.LibDotRowsT
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx

namespace Cert.KernelIdeal.Row

open Cert.KernelIdeal Cert.KernelIdeal.Gen Cert.KernelIdeal.Pieces

/-! ## The activation tile -/

theorem slab_inb (g : Fin 26) :
    ∀ a, (![g.val, 0, 0] : Fin 3 → Nat) a + S1x512x128.size a ≤ S26x512x128.size a := fun a => by
  have := g.isLt
  match a with
  | ⟨0, _⟩ => show g.val + 1 ≤ 26; omega
  | ⟨1, _⟩ => show 0 + 512 ≤ 512; omega
  | ⟨2, _⟩ => show 0 + 128 ≤ 128; omega

/-- Feature slab `g` of the input block as the body forms it: loaded as [1, 512, 128], the unit axis dropped. -/
def slab (x0 : Vec Ideal S26x512x128 .f32) (g : Fin 26) : FVec Ideal S512x128 .bf16 :=
  truncf .bf16 (shapeCast S512x128 (View.ld x0 (Rect.unit ![g.val, 0, 0] S1x512x128.size (slab_inb g)))
    shapeCasts_S1x512x128_S512x128) bitsLt_bf16_f32

/-- Slab `g` at (p, l) is the block at (g, p, l). -/
theorem slab_apply (x0 : Vec Ideal S26x512x128 .f32) (g : Fin 26) (p : Fin 512) (l : Fin 128) :
    slab x0 g (ix2 p l) = x0 (ix3 g p l) := by
  unfold slab
  rw [truncf_apply, shapeCast_1ab_ab_apply]
  show x0 _ = x0 _
  refine congrArg x0 (funext fun a => Fin.ext ?_)
  match a with
  | ⟨0, _⟩ => show g.val + 1 * 0 = g.val; omega
  | ⟨1, _⟩ => show 0 + 1 * p.val = p.val; omega
  | ⟨2, _⟩ => show 0 + 1 * l.val = l.val; omega

/-- The tile is the 26 slabs joined along the columns. -/
theorem tile_eq (x0 : Vec Ideal S26x512x128 .f32) :
    tile x0 = concatenate S512x3328 1
      (List.ofFn fun g : Fin 26 => (⟨S512x128, slab x0 g⟩ : (s : Shape) × (s.Idx → Ideal .bf16)))
      concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3328_d1 := rfl

/-- The tile at (p, k): feature k / 128, lane k % 128 of row p. -/
theorem tile_apply (x0 : Vec Ideal S26x512x128 .f32) (p : Fin 512) (k : Fin 3328) :
    tile x0 (ix2 p k) = x0 (ix3 (Mlp.feat k) p (Mlp.lane k)) := by
  rw [tile_eq]
  refine (concatenate_ofFn_apply (t := S512x3328) (s₁ := S512x128) (1 : Fin 2) (slab x0)
    concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3328_d1
    rfl 128 rfl (ix2 p k) (Mlp.feat k) rfl
    (ix2 p (Mlp.lane k)) rfl (fun b => ?_)).trans (slab_apply x0 _ p _)
  match b with
  | ⟨0, _⟩ => exact fun _ => rfl
  | ⟨1, _⟩ => exact fun h => absurd rfl h

/-! ## The small operands, as the body lays them out -/

theorem w2t_apply (x3 : Vec Ideal S5x1664 .f32) (j : Fin 1664) (q : Fin 5) : k0_pay4 x3 (ix2 j q) = x3 (ix2 q j) := by
  unfold k0_pay4
  rw [truncf_apply, transpose_ix2_apply]

theorem w3t_apply (x5 : Vec Ideal S1x5 .f32) (q : Fin 5) (u : Fin 1) : k0_pay5 x5 (ix2 q u) = x5 (ix2 u q) := by
  unfold k0_pay5
  rw [truncf_apply, transpose_ix2_apply]

theorem b1row_apply (x2 : Vec Ideal S1664 .f32) (u : Fin 1) (j : Fin 1664) : k0_pay6 x2 (ix2 u j) = x2 (ix1 j) := by
  unfold k0_pay6
  rw [shapeCast_a_1a_apply]

theorem b2row_apply (x4 : Vec Ideal S5 .f32) (u : Fin 1) (q : Fin 5) : k0_pay7 x4 (ix2 u q) = x4 (ix1 q) := by
  unfold k0_pay7
  rw [shapeCast_a_1a_apply]

theorem b3row_apply (x6 : Vec Ideal S1 .f32) (u v : Fin 1) : k0_pay8 x6 (ix2 u v) = x6 (ix1 v) := by
  unfold k0_pay8
  rw [shapeCast_a_1a_apply]

/-! ## The five contractions' index facts -/

theorem dA_h1 : ∀ j k, (dot_S512x3328_S1024x3328_S512x1024_1_1_0_0_n_n.lhsIdx j k 0).val = (j 0).val := fun j k => by
  unfold DotDims.lhsIdx
  rw [dif_neg (show ¬(0 : Fin S512x3328.rank) ∈ dot_S512x3328_S1024x3328_S512x1024_1_1_0_0_n_n.lhsBatch by decide),
    dif_pos (show (0 : Fin S512x3328.rank) ∈ dot_S512x3328_S1024x3328_S512x1024_1_1_0_0_n_n.lhsNonContracting by decide)]
  rfl
theorem dA_h2 : ∀ j k, (dot_S512x3328_S1024x3328_S512x1024_1_1_0_0_n_n.lhsIdx j k 1).val = (k ⟨0, by decide⟩).val :=
  fun j k => dot_S512x3328_S1024x3328_S512x1024_1_1_0_0_n_n.lhsIdx_val_of_single rfl j k
theorem dA_h3 : ∀ j k, (dot_S512x3328_S1024x3328_S512x1024_1_1_0_0_n_n.rhsIdx j k 0).val = (j 1).val := fun j k => by
  unfold DotDims.rhsIdx
  rw [dif_neg (show ¬(0 : Fin S1024x3328.rank) ∈ dot_S512x3328_S1024x3328_S512x1024_1_1_0_0_n_n.rhsBatch by decide),
    dif_pos (show (0 : Fin S1024x3328.rank) ∈ dot_S512x3328_S1024x3328_S512x1024_1_1_0_0_n_n.rhsNonContracting by decide)]
  rfl
theorem dA_h4 : ∀ j k, (dot_S512x3328_S1024x3328_S512x1024_1_1_0_0_n_n.rhsIdx j k 1).val = (k ⟨0, by decide⟩).val :=
  fun j k => dot_S512x3328_S1024x3328_S512x1024_1_1_0_0_n_n.rhsIdx_val_of_single rfl j k

theorem dB_h1 : ∀ j k, (dot_S512x3328_S640x3328_S512x640_1_1_0_0_n_n.lhsIdx j k 0).val = (j 0).val := fun j k => by
  unfold DotDims.lhsIdx
  rw [dif_neg (show ¬(0 : Fin S512x3328.rank) ∈ dot_S512x3328_S640x3328_S512x640_1_1_0_0_n_n.lhsBatch by decide),
    dif_pos (show (0 : Fin S512x3328.rank) ∈ dot_S512x3328_S640x3328_S512x640_1_1_0_0_n_n.lhsNonContracting by decide)]
  rfl
theorem dB_h2 : ∀ j k, (dot_S512x3328_S640x3328_S512x640_1_1_0_0_n_n.lhsIdx j k 1).val = (k ⟨0, by decide⟩).val :=
  fun j k => dot_S512x3328_S640x3328_S512x640_1_1_0_0_n_n.lhsIdx_val_of_single rfl j k
theorem dB_h3 : ∀ j k, (dot_S512x3328_S640x3328_S512x640_1_1_0_0_n_n.rhsIdx j k 0).val = (j 1).val := fun j k => by
  unfold DotDims.rhsIdx
  rw [dif_neg (show ¬(0 : Fin S640x3328.rank) ∈ dot_S512x3328_S640x3328_S512x640_1_1_0_0_n_n.rhsBatch by decide),
    dif_pos (show (0 : Fin S640x3328.rank) ∈ dot_S512x3328_S640x3328_S512x640_1_1_0_0_n_n.rhsNonContracting by decide)]
  rfl
theorem dB_h4 : ∀ j k, (dot_S512x3328_S640x3328_S512x640_1_1_0_0_n_n.rhsIdx j k 1).val = (k ⟨0, by decide⟩).val :=
  fun j k => dot_S512x3328_S640x3328_S512x640_1_1_0_0_n_n.rhsIdx_val_of_single rfl j k

theorem dC_h1 : ∀ j k, (dot_S512x1024_S1024x5_S512x5_1_0_0_1_n_n.lhsIdx j k 0).val = (j 0).val := fun j k => by
  unfold DotDims.lhsIdx
  rw [dif_neg (show ¬(0 : Fin S512x1024.rank) ∈ dot_S512x1024_S1024x5_S512x5_1_0_0_1_n_n.lhsBatch by decide),
    dif_pos (show (0 : Fin S512x1024.rank) ∈ dot_S512x1024_S1024x5_S512x5_1_0_0_1_n_n.lhsNonContracting by decide)]
  rfl
theorem dC_h2 : ∀ j k, (dot_S512x1024_S1024x5_S512x5_1_0_0_1_n_n.lhsIdx j k 1).val = (k ⟨0, by decide⟩).val :=
  fun j k => dot_S512x1024_S1024x5_S512x5_1_0_0_1_n_n.lhsIdx_val_of_single rfl j k
theorem dC_h3 : ∀ j k, (dot_S512x1024_S1024x5_S512x5_1_0_0_1_n_n.rhsIdx j k 0).val = (k ⟨0, by decide⟩).val :=
  fun j k => dot_S512x1024_S1024x5_S512x5_1_0_0_1_n_n.rhsIdx_val_of_single rfl j k
theorem dC_h4 : ∀ j k, (dot_S512x1024_S1024x5_S512x5_1_0_0_1_n_n.rhsIdx j k 1).val = (j 1).val := fun j k => by
  unfold DotDims.rhsIdx
  rw [dif_neg (show ¬(1 : Fin S1024x5.rank) ∈ dot_S512x1024_S1024x5_S512x5_1_0_0_1_n_n.rhsBatch by decide),
    dif_pos (show (1 : Fin S1024x5.rank) ∈ dot_S512x1024_S1024x5_S512x5_1_0_0_1_n_n.rhsNonContracting by decide)]
  rfl

theorem dD_h1 : ∀ j k, (dot_S512x640_S640x5_S512x5_1_0_0_1_n_n.lhsIdx j k 0).val = (j 0).val := fun j k => by
  unfold DotDims.lhsIdx
  rw [dif_neg (show ¬(0 : Fin S512x640.rank) ∈ dot_S512x640_S640x5_S512x5_1_0_0_1_n_n.lhsBatch by decide),
    dif_pos (show (0 : Fin S512x640.rank) ∈ dot_S512x640_S640x5_S512x5_1_0_0_1_n_n.lhsNonContracting by decide)]
  rfl
theorem dD_h2 : ∀ j k, (dot_S512x640_S640x5_S512x5_1_0_0_1_n_n.lhsIdx j k 1).val = (k ⟨0, by decide⟩).val :=
  fun j k => dot_S512x640_S640x5_S512x5_1_0_0_1_n_n.lhsIdx_val_of_single rfl j k
theorem dD_h3 : ∀ j k, (dot_S512x640_S640x5_S512x5_1_0_0_1_n_n.rhsIdx j k 0).val = (k ⟨0, by decide⟩).val :=
  fun j k => dot_S512x640_S640x5_S512x5_1_0_0_1_n_n.rhsIdx_val_of_single rfl j k
theorem dD_h4 : ∀ j k, (dot_S512x640_S640x5_S512x5_1_0_0_1_n_n.rhsIdx j k 1).val = (j 1).val := fun j k => by
  unfold DotDims.rhsIdx
  rw [dif_neg (show ¬(1 : Fin S640x5.rank) ∈ dot_S512x640_S640x5_S512x5_1_0_0_1_n_n.rhsBatch by decide),
    dif_pos (show (1 : Fin S640x5.rank) ∈ dot_S512x640_S640x5_S512x5_1_0_0_1_n_n.rhsNonContracting by decide)]
  rfl

theorem dE_h1 : ∀ j k, (dot_S512x5_S5x1_S512x1_1_0_0_1_n_n.lhsIdx j k 0).val = (j 0).val := fun j k => by
  unfold DotDims.lhsIdx
  rw [dif_neg (show ¬(0 : Fin S512x5.rank) ∈ dot_S512x5_S5x1_S512x1_1_0_0_1_n_n.lhsBatch by decide),
    dif_pos (show (0 : Fin S512x5.rank) ∈ dot_S512x5_S5x1_S512x1_1_0_0_1_n_n.lhsNonContracting by decide)]
  rfl
theorem dE_h2 : ∀ j k, (dot_S512x5_S5x1_S512x1_1_0_0_1_n_n.lhsIdx j k 1).val = (k ⟨0, by decide⟩).val :=
  fun j k => dot_S512x5_S5x1_S512x1_1_0_0_1_n_n.lhsIdx_val_of_single rfl j k
theorem dE_h3 : ∀ j k, (dot_S512x5_S5x1_S512x1_1_0_0_1_n_n.rhsIdx j k 0).val = (k ⟨0, by decide⟩).val :=
  fun j k => dot_S512x5_S5x1_S512x1_1_0_0_1_n_n.rhsIdx_val_of_single rfl j k
theorem dE_h4 : ∀ j k, (dot_S512x5_S5x1_S512x1_1_0_0_1_n_n.rhsIdx j k 1).val = (j 1).val := fun j k => by
  unfold DotDims.rhsIdx
  rw [dif_neg (show ¬(1 : Fin S5x1.rank) ∈ dot_S512x5_S5x1_S512x1_1_0_0_1_n_n.rhsBatch by decide),
    dif_pos (show (1 : Fin S5x1.rank) ∈ dot_S512x5_S5x1_S512x1_1_0_0_1_n_n.rhsNonContracting by decide)]
  rfl

/-! ## The scratch rows the two halves of the first layer read -/

theorem wlo_apply (w : Vec Ideal S1664x3328 .bf16) (j : Fin 1024) (k : Fin 3328) :
    View.ld w (Rect.unit ![0, 0] S1024x3328.size inb_S1664x3328_S1024x3328_0_0) (ix2 j k)
      = w (ix2 ⟨j.val, by have := j.isLt; omega⟩ k) := by
  show w _ = w _
  refine congrArg w (funext fun a => Fin.ext ?_)
  match a with
  | ⟨0, _⟩ => show 0 + 1 * j.val = j.val; omega
  | ⟨1, _⟩ => show 0 + 1 * k.val = k.val; omega

theorem whi_apply (w : Vec Ideal S1664x3328 .bf16) (j : Fin 640) (k : Fin 3328) :
    View.ld w (Rect.unit ![1024, 0] S640x3328.size inb_S1664x3328_S640x3328_1024_0) (ix2 j k)
      = w (ix2 ⟨1024 + j.val, by have := j.isLt; omega⟩ k) := by
  show w _ = w _
  refine congrArg w (funext fun a => Fin.ext ?_)
  match a with
  | ⟨0, _⟩ => show 1024 + 1 * j.val = 1024 + j.val; omega
  | ⟨1, _⟩ => show 0 + 1 * k.val = k.val; omega

/-! ## The body's intermediate values, named -/

/-- First layer, units 0–1023, rectified. -/
def h1lo (T : FVec Ideal S512x3328 .bf16) (v10 : FVec Ideal S1x1664 .f32) (wA : FVec Ideal S1024x3328 .bf16) :
    FVec Ideal S512x1024 .bf16 :=
  truncf .bf16 (maximumf (addf (matmul (φ₁ := .bf16) (φ₂ := .bf16) dot_S512x3328_S1024x3328_S512x1024_1_1_0_0_n_n none T wA (constant (F := Ideal) S512x1024 .f32 0x00000000#32))
      (broadcastTo S512x1024 (extractStridedSlice S1x1024 ![0, 0] v10 slices_S1x1664_o0_0_S1x1024) broadcasts_S1x1024_S512x1024))
    (broadcast S512x1024 (Scalar.ofBits (F := Ideal) .f32 0x00000000#32))) bitsLt_bf16_f32

/-- First layer, units 1024–1663, rectified. -/
def h1hi (T : FVec Ideal S512x3328 .bf16) (v10 : FVec Ideal S1x1664 .f32) (wB : FVec Ideal S640x3328 .bf16) :
    FVec Ideal S512x640 .bf16 :=
  truncf .bf16 (maximumf (addf (matmul (φ₁ := .bf16) (φ₂ := .bf16) dot_S512x3328_S640x3328_S512x640_1_1_0_0_n_n none T wB (constant (F := Ideal) S512x640 .f32 0x00000000#32))
      (broadcastTo S512x640 (extractStridedSlice S1x640 ![0, 1024] v10 slices_S1x1664_o0_1024_S1x640) broadcasts_S1x640_S512x640))
    (broadcast S512x640 (Scalar.ofBits (F := Ideal) .f32 0x00000000#32))) bitsLt_bf16_f32

/-- Second layer: the two partial products added, the bias, rectified. -/
def h2 (v5 : FVec Ideal S1664x5 .bf16) (v12 : FVec Ideal S1x5 .f32) (A : FVec Ideal S512x1024 .bf16)
    (B : FVec Ideal S512x640 .bf16) : FVec Ideal S512x5 .bf16 :=
  truncf .bf16 (maximumf (addf (addf
        (matmul (φ₁ := .bf16) (φ₂ := .bf16) dot_S512x1024_S1024x5_S512x5_1_0_0_1_n_n none A (extractStridedSlice S1024x5 ![0, 0] v5 slices_S1664x5_o0_0_S1024x5)
          (constant (F := Ideal) S512x5 .f32 0x00000000#32))
        (matmul (φ₁ := .bf16) (φ₂ := .bf16) dot_S512x640_S640x5_S512x5_1_0_0_1_n_n none B (extractStridedSlice S640x5 ![1024, 0] v5 slices_S1664x5_o1024_0_S640x5)
          (constant (F := Ideal) S512x5 .f32 0x00000000#32)))
      (broadcastTo S512x5 v12 broadcasts_S1x5_S512x5))
    (broadcast S512x5 (Scalar.ofBits (F := Ideal) .f32 0x00000000#32))) bitsLt_bf16_f32

/-- The stored block is the last affine layer over those. -/
theorem blockOut_eq (x0 : Vec Ideal S26x512x128 .f32) (x2 : Vec Ideal S1664 .f32) (x3 : Vec Ideal S5x1664 .f32)
    (x4 : Vec Ideal S5 .f32) (x5 : Vec Ideal S1x5 .f32) (x6 : Vec Ideal S1 .f32) (w : Vec Ideal S1664x3328 .bf16) :
    blockOut x0 x2 x3 x4 x5 x6 w
      = addf (matmul (φ₁ := .bf16) (φ₂ := .bf16) dot_S512x5_S5x1_S512x1_1_0_0_1_n_n none
            (h2 (k0_pay4 x3) (k0_pay7 x4)
              (h1lo (tile x0) (k0_pay6 x2) (View.ld w (Rect.unit ![0, 0] S1024x3328.size inb_S1664x3328_S1024x3328_0_0)))
              (h1hi (tile x0) (k0_pay6 x2) (View.ld w (Rect.unit ![1024, 0] S640x3328.size inb_S1664x3328_S640x3328_1024_0))))
            (k0_pay5 x5) (constant (F := Ideal) S512x1 .f32 0x00000000#32))
          (broadcastTo S512x1 (k0_pay8 x6) broadcasts_S1x1_S512x1) := rfl

/-! ## Each of them at an index -/

theorem h1lo_apply (T : FVec Ideal S512x3328 .bf16) (v10 : FVec Ideal S1x1664 .f32) (wA : FVec Ideal S1024x3328 .bf16)
    (p : Fin 512) (j : Fin 1024) :
    h1lo T v10 wA (ix2 p j)
      = max ((∑ k : Fin 3328, T (ix2 p k) * wA (ix2 j k)) + v10 (ix2 (0 : Fin 1) ⟨j.val, by have := j.isLt; omega⟩))
          Mlp.zero := by
  unfold h1lo matmul
  rw [truncf_apply, maximumf_apply, addf_apply, broadcast_apply,
    matmul_zero_rowsT _ _ rfl rfl dA_h1 dA_h2 dA_h3 dA_h4, broadcastTo_1b_ab_apply,
    slice2_axis1_apply 0 v10 _ (0 : Fin 1) j ⟨j.val, by have := j.isLt; omega⟩ (Nat.zero_add _).symm]
  rfl

theorem h1hi_apply (T : FVec Ideal S512x3328 .bf16) (v10 : FVec Ideal S1x1664 .f32) (wB : FVec Ideal S640x3328 .bf16)
    (p : Fin 512) (j : Fin 640) :
    h1hi T v10 wB (ix2 p j)
      = max ((∑ k : Fin 3328, T (ix2 p k) * wB (ix2 j k)) + v10 (ix2 (0 : Fin 1) ⟨1024 + j.val, by have := j.isLt; omega⟩))
          Mlp.zero := by
  unfold h1hi matmul
  rw [truncf_apply, maximumf_apply, addf_apply, broadcast_apply,
    matmul_zero_rowsT _ _ rfl rfl dB_h1 dB_h2 dB_h3 dB_h4, broadcastTo_1b_ab_apply,
    slice2_axis1_apply 1024 v10 _ (0 : Fin 1) j ⟨1024 + j.val, by have := j.isLt; omega⟩ rfl]
  rfl

theorem h2_apply (v5 : FVec Ideal S1664x5 .bf16) (v12 : FVec Ideal S1x5 .f32) (A : FVec Ideal S512x1024 .bf16)
    (B : FVec Ideal S512x640 .bf16) (p : Fin 512) (q : Fin 5) :
    h2 v5 v12 A B (ix2 p q)
      = max (((∑ j : Fin 1024, A (ix2 p j) * v5 (ix2 ⟨j.val, by have := j.isLt; omega⟩ q))
            + ∑ j : Fin 640, B (ix2 p j) * v5 (ix2 ⟨1024 + j.val, by have := j.isLt; omega⟩ q))
          + v12 (ix2 (0 : Fin 1) q)) Mlp.zero := by
  unfold h2 matmul
  rw [truncf_apply, maximumf_apply, addf_apply, addf_apply, broadcast_apply,
    matmul_zero_rows _ _ rfl rfl dC_h1 dC_h2 dC_h3 dC_h4, matmul_zero_rows _ _ rfl rfl dD_h1 dD_h2 dD_h3 dD_h4,
    broadcastTo_1b_ab_apply]
  refine congrArg₂ max (congrArg₂ (· + ·) (congrArg₂ (· + ·) (Finset.sum_congr rfl fun j _ => ?_)
    (Finset.sum_congr rfl fun j _ => ?_)) rfl) rfl
  · rw [slice2_axis0_apply 0 v5 _ j q ⟨j.val, by have := j.isLt; omega⟩ (Nat.zero_add _).symm]
  · rw [slice2_axis0_apply 1024 v5 _ j q ⟨1024 + j.val, by have := j.isLt; omega⟩ rfl]

/-! ## The stored block at an index -/

/-- Row `p` of the input block, flattened feature after feature. -/
abbrev blockRow (x0 : Vec Ideal S26x512x128 .f32) (p : Fin 512) : Fin 3328 → EReal :=
  fun k => x0 (ix3 (Mlp.feat k) p (Mlp.lane k))

theorem blockOut_apply (x0 : Vec Ideal S26x512x128 .f32) (x2 : Vec Ideal S1664 .f32) (x3 : Vec Ideal S5x1664 .f32)
    (x4 : Vec Ideal S5 .f32) (x5 : Vec Ideal S1x5 .f32) (x6 : Vec Ideal S1 .f32) (w : Vec Ideal S1664x3328 .bf16)
    (p : Fin 512) (u : Fin 1) :
    blockOut x0 x2 x3 x4 x5 x6 w (ix2 p u) = Mlp.outRow w x2 x3 x4 x5 x6 (blockRow x0 p) := by
  obtain rfl : u = 0 := Fin.ext (by omega)
  have e1lo : ∀ j : Fin 1024,
      h1lo (tile x0) (k0_pay6 x2) (View.ld w (Rect.unit ![0, 0] S1024x3328.size inb_S1664x3328_S1024x3328_0_0)) (ix2 p j)
        = Mlp.hidden1 w x2 (blockRow x0 p) ⟨j.val, by have := j.isLt; omega⟩ := fun j => by
    rw [h1lo_apply, b1row_apply]
    unfold Mlp.hidden1
    refine congrArg (fun s => max (s + _) Mlp.zero) (Finset.sum_congr rfl fun k _ => ?_)
    rw [tile_apply, wlo_apply]
  have e1hi : ∀ j : Fin 640,
      h1hi (tile x0) (k0_pay6 x2) (View.ld w (Rect.unit ![1024, 0] S640x3328.size inb_S1664x3328_S640x3328_1024_0)) (ix2 p j)
        = Mlp.hidden1 w x2 (blockRow x0 p) ⟨1024 + j.val, by have := j.isLt; omega⟩ := fun j => by
    rw [h1hi_apply, b1row_apply]
    unfold Mlp.hidden1
    refine congrArg (fun s => max (s + _) Mlp.zero) (Finset.sum_congr rfl fun k _ => ?_)
    rw [tile_apply, whi_apply]
  have e2 : ∀ q : Fin 5,
      h2 (k0_pay4 x3) (k0_pay7 x4)
          (h1lo (tile x0) (k0_pay6 x2) (View.ld w (Rect.unit ![0, 0] S1024x3328.size inb_S1664x3328_S1024x3328_0_0)))
          (h1hi (tile x0) (k0_pay6 x2) (View.ld w (Rect.unit ![1024, 0] S640x3328.size inb_S1664x3328_S640x3328_1024_0)))
          (ix2 p q)
        = Mlp.hidden2 w x2 x3 x4 (blockRow x0 p) q := fun q => by
    rw [h2_apply, b2row_apply]
    unfold Mlp.hidden2
    rw [Mlp.sum_1664_split]
    refine congrArg (fun s => max (s + _) Mlp.zero) (congrArg₂ (· + ·) (Finset.sum_congr rfl fun j _ => ?_)
      (Finset.sum_congr rfl fun j _ => ?_))
    · rw [e1lo, w2t_apply]
    · rw [e1hi, w2t_apply]
  rw [blockOut_eq, addf_apply]
  unfold matmul
  rw [matmul_zero_rows _ _ rfl rfl dE_h1 dE_h2 dE_h3 dE_h4, broadcastTo_1b_ab_apply, b3row_apply]
  unfold Mlp.outRow
  refine congrArg (fun s => s + _) (Finset.sum_congr rfl fun q _ => ?_)
  rw [e2, w3t_apply]

end Cert.KernelIdeal.Row

end
-- ==== Proof.KernelArray.lean ====
/-
  From the blocks the points store to the result array.

  Point t of the grid reads rows 512·t … 512·t + 511 of the (transposed) input and stores rows 512·t … 512·t + 511 of
  the result; the small operands' blocks are their whole arrays at every point.  The scratch buffer is filled at the
  first point with the first layer's weights and never written again, so by induction on the point it holds those
  weights after every point.  Hence every point stores the block of ONE function of the arguments, `Mlp.result`, and
  since the eight blocks cover the 4096 rows the result array ends holding that function.
-/
import proofs.«122074_g75342316306484_cont_9to1c4b_469_27_alg».proof.Proof.Gen.KernelIdeal.Value
import proofs.«122074_g75342316306484_cont_9to1c4b_469_27_alg».proof.Proof.KernelRow
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Pieces Cert.KernelIdeal.Row

variable (m : (ℓ : Loc nD τ sig) → Buf (Elt Ideal) ℓ) (ρ : Dev nD → PrngReg)

theorem N8 : cfg0.N = 8 := N_0
theorem pos0 : 0 < cfg0.N := by rw [N8]; decide

/-- The result array's contents: `Mlp.result` of the seven arguments as launched. -/
abbrev G (c : Dev nD) : Buf (Elt Ideal) ((c : Thread nD τ).loc main_v1) :=
  Mlp.result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-! ## The scratch buffer holds the first layer's weights after every point -/

/-- At the first point the scratch buffer ends at the cast of that point's weight block. -/
theorem scratch_first_pt (c : Dev nD) (t : Fin cfg0.N) (h0 : t.val % 8 = 0) :
    (outsAt0 m c t.val t.isLt).2 = k0_pay3 (iblk m c 1 t) := by
  rw [outsAt0_A m c t h0]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    ((hcond0_0 t).mpr h0) (iblk m c 0 t) (iblk m c 1 t) (iblk m c 2 t) (iblk m c 3 t) (iblk m c 4 t) (iblk m c 5 t) (iblk m c 6 t)

/-- A later point leaves the scratch buffer as the point before left it. -/
theorem scratch_later_pt (c : Dev nD) (t : Fin cfg0.N) (h0 : ¬t.val % 8 = 0) :
    (outsAt0 m c t.val t.isLt).2
      = (outsAt0 m c (t.val - 1) (Nat.lt_of_le_of_lt (Nat.sub_le _ _) t.isLt)).2 := by
  rw [outsAt0_B m c t h0]
  dsimp only
  unfold sout0_B_0
  rfl

theorem scratch_eq (c : Dev nD) :
    ∀ (n : ℕ) (h : n < cfg0.N), (outsAt0 m c n h).2 = k0_pay3 (iblk m c 1 ⟨0, pos0⟩)
  | 0, h => scratch_first_pt m c ⟨0, h⟩ (Nat.zero_mod _)
  | n + 1, h => by
    have hN : cfg0.N = 8 := N_0
    have hB : ¬(⟨n + 1, h⟩ : Fin cfg0.N).val % 8 = 0 := by dsimp only; omega
    exact (scratch_later_pt m c ⟨n + 1, h⟩ hB).trans (scratch_eq c n _)

/-! ## Where each window's block sits -/

/-- The printed index maps over the grid: only the input's and the result's row-block index moves, with the point. -/
theorem idx0 : ∀ t : Fin cfg0.N, win0_0.index t (0 : Fin 3) = 0 ∧ win0_0.index t (1 : Fin 3) = t.val
    ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-- The first layer's weight block is the whole weight array, at every point. -/
theorem blk1 (c : Dev nD) (t : Fin cfg0.N) :
    (iblk m c 1 t : Vec Ideal S1664x3328 .f32) = (m ((c : Thread nD τ).loc main_arg1)) := by
  obtain ⟨e0, e1⟩ := idx1 t
  funext y
  show V m c main_arg1 (((cfg0.win 1).blk t).view.emb y) = (m ((c : Thread nD τ).loc main_arg1)) y
  rw [V_main_arg1 m c]
  refine congrArg (m ((c : Thread nD τ).loc main_arg1)) (funext fun a => Fin.ext ?_)
  match a with
  | ⟨0, _⟩ => show win0_1.index t (0 : Fin 2) * 1664 + 1 * (y 0).val = (y 0).val; rw [e0]; omega
  | ⟨1, _⟩ => show win0_1.index t (1 : Fin 2) * 3328 + 1 * (y 1).val = (y 1).val; rw [e1]; omega

theorem blk2 (c : Dev nD) (t : Fin cfg0.N) : (iblk m c 2 t : Vec Ideal S1664 .f32) = (m ((c : Thread nD τ).loc main_arg2)) := by
  have e0 := idx2 t
  funext y
  show V m c main_arg2 (((cfg0.win 2).blk t).view.emb y) = (m ((c : Thread nD τ).loc main_arg2)) y
  rw [V_main_arg2 m c]
  refine congrArg (m ((c : Thread nD τ).loc main_arg2)) (funext fun a => Fin.ext ?_)
  match a with
  | ⟨0, _⟩ => show win0_2.index t (0 : Fin 1) * 1664 + 1 * (y 0).val = (y 0).val; rw [e0]; omega

theorem blk3 (c : Dev nD) (t : Fin cfg0.N) : (iblk m c 3 t : Vec Ideal S5x1664 .f32) = (m ((c : Thread nD τ).loc main_arg3)) := by
  obtain ⟨e0, e1⟩ := idx3 t
  funext y
  show V m c main_arg3 (((cfg0.win 3).blk t).view.emb y) = (m ((c : Thread nD τ).loc main_arg3)) y
  rw [V_main_arg3 m c]
  refine congrArg (m ((c : Thread nD τ).loc main_arg3)) (funext fun a => Fin.ext ?_)
  match a with
  | ⟨0, _⟩ => show win0_3.index t (0 : Fin 2) * 5 + 1 * (y 0).val = (y 0).val; rw [e0]; omega
  | ⟨1, _⟩ => show win0_3.index t (1 : Fin 2) * 1664 + 1 * (y 1).val = (y 1).val; rw [e1]; omega

theorem blk4 (c : Dev nD) (t : Fin cfg0.N) : (iblk m c 4 t : Vec Ideal S5 .f32) = (m ((c : Thread nD τ).loc main_arg4)) := by
  have e0 := idx4 t
  funext y
  show V m c main_arg4 (((cfg0.win 4).blk t).view.emb y) = (m ((c : Thread nD τ).loc main_arg4)) y
  rw [V_main_arg4 m c]
  refine congrArg (m ((c : Thread nD τ).loc main_arg4)) (funext fun a => Fin.ext ?_)
  match a with
  | ⟨0, _⟩ => show win0_4.index t (0 : Fin 1) * 5 + 1 * (y 0).val = (y 0).val; rw [e0]; omega

theorem blk5 (c : Dev nD) (t : Fin cfg0.N) : (iblk m c 5 t : Vec Ideal S1x5 .f32) = (m ((c : Thread nD τ).loc main_arg5)) := by
  obtain ⟨e0, e1⟩ := idx5 t
  funext y
  show V m c main_arg5 (((cfg0.win 5).blk t).view.emb y) = (m ((c : Thread nD τ).loc main_arg5)) y
  rw [V_main_arg5 m c]
  refine congrArg (m ((c : Thread nD τ).loc main_arg5)) (funext fun a => Fin.ext ?_)
  match a with
  | ⟨0, _⟩ => show win0_5.index t (0 : Fin 2) * 1 + 1 * (y 0).val = (y 0).val; rw [e0]; omega
  | ⟨1, _⟩ => show win0_5.index t (1 : Fin 2) * 5 + 1 * (y 1).val = (y 1).val; rw [e1]; omega

theorem blk6 (c : Dev nD) (t : Fin cfg0.N) : (iblk m c 6 t : Vec Ideal S1 .f32) = (m ((c : Thread nD τ).loc main_arg6)) := by
  have e0 := idx6 t
  funext y
  show V m c main_arg6 (((cfg0.win 6).blk t).view.emb y) = (m ((c : Thread nD τ).loc main_arg6)) y
  rw [V_main_arg6 m c]
  refine congrArg (m ((c : Thread nD τ).loc main_arg6)) (funext fun a => Fin.ext ?_)
  match a with
  | ⟨0, _⟩ => show win0_6.index t (0 : Fin 1) * 1 + 1 * (y 0).val = (y 0).val; rw [e0]; omega

/-- The array the input window reads is the input with its first two axes exchanged. -/
theorem v0_eq (c : Dev nD) :
    (V m c main_v0 : S26x4096x128.Idx → EReal)
      = transpose S26x4096x128 [1, 0, 2] (m ((c : Thread nD τ).loc main_arg0)) transposes_S4096x26x128_S26x4096x128_1_0_2 := by
  dsimp only [Gen.V, Gen.hostOps0]
  after_results

/-- Row `p` of point `t`'s input block, flattened, is row `512·t + p` of the input, flattened. -/
theorem row_read (c : Dev nD) (t : Fin cfg0.N) (p : Fin 512) (r : Fin 4096) (hr : r.val = t.val * 512 + p.val) :
    blockRow (iblk m c 0 t) p = Mlp.flatRow (m ((c : Thread nD τ).loc main_arg0)) r := by
  obtain ⟨e0, e1, e2⟩ := idx0 t
  funext k
  show V m c main_v0 (((cfg0.win 0).blk t).view.emb (ix3 (Mlp.feat k) p (Mlp.lane k)))
    = (m ((c : Thread nD τ).loc main_arg0)) (ix3 r (Mlp.feat k) (Mlp.lane k))
  rw [v0_eq]
  refine transpose_apply [1, 0, 2] _ _ _ _ (fun b => ?_)
  match b with
  | ⟨0, _⟩ => show (Mlp.feat k).val = win0_0.index t (0 : Fin 3) * 26 + 1 * (Mlp.feat k).val; rw [e0]; omega
  | ⟨1, _⟩ => show r.val = win0_0.index t (1 : Fin 3) * 512 + 1 * p.val; rw [e1]; omega
  | ⟨2, _⟩ => show (Mlp.lane k).val = win0_0.index t (2 : Fin 3) * 128 + 1 * (Mlp.lane k).val; rw [e2]; omega

/-- The cast of the weights into the scratch buffer's format is the identity on the values. -/
theorem cast_id (x1 : Vec Ideal S1664x3328 .f32) : (k0_pay3 x1 : S1664x3328.Idx → EReal) = x1 := by
  show shapeCast S1664x3328 (truncf (F := Ideal) (φ := .f32) .bf16 x1 bitsLt_bf16_f32 : FVec Ideal S1664x3328 .bf16)
    shapeCasts_S1664x3328_S1664x3328 = x1
  rw [shapeCast_self]
  rfl

/-! ## What a point stores is its block of `Mlp.result` -/

theorem point_value (c : Dev nD) (t : Fin cfg0.N) (y : S512x1.Idx) :
    blockOut (iblk m c 0 t) (iblk m c 2 t) (iblk m c 3 t) (iblk m c 4 t) (iblk m c 5 t) (iblk m c 6 t)
        (k0_pay3 (iblk m c 1 ⟨0, pos0⟩)) y
      = G m c (((cfg0.win 7).blk t).view.emb y) := by
  obtain ⟨p, u, rfl⟩ : ∃ (p : Fin 512) (u : Fin 1), y = ix2 p u := ⟨y 0, y 1, eq_ix2 y⟩
  have hN := N8
  have hr : t.val * 512 + p.val < 4096 := by have := t.isLt; have := p.isLt; omega
  obtain ⟨e70, e71⟩ := idx7 t
  refine (blockOut_apply (iblk m c 0 t) (iblk m c 2 t) (iblk m c 3 t) (iblk m c 4 t) (iblk m c 5 t) (iblk m c 6 t)
    (k0_pay3 (iblk m c 1 ⟨0, pos0⟩)) p u).trans ?_
  rw [cast_id, blk1, blk2, blk3, blk4, blk5, blk6, row_read m c t p ⟨t.val * 512 + p.val, hr⟩ rfl]
  show _ = Mlp.outRow _ _ _ _ _ _ (Mlp.flatRow _ ((((cfg0.win 7).blk t).view.emb (ix2 p u)) 0))
  refine congrArg (fun r => Mlp.outRow _ _ _ _ _ _ (Mlp.flatRow _ r)) (Fin.ext ?_)
  show t.val * 512 + p.val = win0_7.index t (0 : Fin 2) * 512 + 1 * p.val
  rw [e70]; omega

theorem flushed_eq (c : Dev nD) (t : Fin cfg0.N) :
    (dats m 0 c).flushed 7 t = ((cfg0.win 7).blk t).view.read (Elt Ideal) (G m c) := by
  have key : (dats m 0 c).flushed 7 t = (cfg0.win 7).cut (grid0.coords t)
      (blockOut (iblk m c 0 t) (iblk m c 2 t) (iblk m c 3 t) (iblk m c 4 t) (iblk m c 5 t) (iblk m c 6 t)
        (k0_pay3 (iblk m c 1 ⟨0, pos0⟩))) := by
    by_cases h0 : t.val % 8 = 0
    · have ht : t = ⟨0, pos0⟩ := Fin.ext (by have := t.isLt; have := N8; show t.val = 0; omega)
      rw [Value.flushed7_A m c t h0]
      refine congrArg ((cfg0.win 7).cut (grid0.coords t)) ((out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
        ((hcond0_0 t).mpr h0) (iblk m c 0 t) (iblk m c 1 t) (iblk m c 2 t) (iblk m c 3 t) (iblk m c 4 t) (iblk m c 5 t) (iblk m c 6 t)).trans ?_)
      exact congrArg (fun s => blockOut (iblk m c 0 t) (iblk m c 2 t) (iblk m c 3 t) (iblk m c 4 t) (iblk m c 5 t)
        (iblk m c 6 t) (k0_pay3 (iblk m c 1 s))) ht
    · rw [Value.flushed7_B m c t h0]
      refine congrArg ((cfg0.win 7).cut (grid0.coords t)) ((out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
        (fun h => h0 ((hcond0_0 t).mp h)) (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)).2).trans ?_)
      rw [scratch_eq]
  rw [key]
  funext y
  exact point_value m c t y

/-! ## The eight blocks cover the array -/

theorem mem_blk (t : Fin cfg0.N) (i : S4096x1.Idx) :
    i ∈ ((cfg0.win 7).blk t).view.set ↔ ∀ a : Fin 2, win0_7.index t a * S512x1.size a ≤ (i a).val
      ∧ (i a).val < win0_7.index t a * S512x1.size a + S512x1.size a := by
  show i ∈ ((View.whole main_v1).slice (win0_7.rect t)).set ↔ _
  rw [View.set_slice_whole, Rect.mem_set_unit]
  exact Iff.rfl

theorem covered (i : S4096x1.Idx) :
    ∃ t : Fin cfg0.N, (cfg0.win 7).flush t = true ∧ i ∈ ((cfg0.win 7).blk t).view.set := by
  have hi0 : (i 0).val < 4096 := (i 0).isLt
  have hi1 : (i 1).val < 1 := (i 1).isLt
  have hN := N8
  have ht : (i 0).val / 512 < cfg0.N := by rw [hN]; omega
  obtain ⟨e70, e71⟩ := idx7 ⟨(i 0).val / 512, ht⟩
  refine ⟨⟨(i 0).val / 512, ht⟩, flush0_7 _, ?_⟩
  rw [mem_blk]
  intro a
  match a with
  | ⟨0, _⟩ =>
    show win0_7.index ⟨(i 0).val / 512, ht⟩ (0 : Fin 2) * 512 ≤ (i 0).val
      ∧ (i 0).val < win0_7.index ⟨(i 0).val / 512, ht⟩ (0 : Fin 2) * 512 + 512
    rw [e70]; dsimp only; omega
  | ⟨1, _⟩ =>
    show win0_7.index ⟨(i 0).val / 512, ht⟩ (1 : Fin 2) * 1 ≤ (i 1).val
      ∧ (i 1).val < win0_7.index ⟨(i 0).val / 512, ht⟩ (1 : Fin 2) * 1 + 1
    rw [e71]; omega

/-- The result array after the run. -/
theorem final (c : Dev nD) : (dats m 0 c).arrAt 7 cfg0.N = G m c :=
  (dats m 0 c).arrAt_eq_of_cover 7 (G m c) (fun t _ => flushed_eq m c t) covered

/-- The run, read: the result array at `Mlp.result` of the arguments, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Arr

end
-- ==== Proof.RefIsSpec.lean ====
/-
  The reference computes `Mlp.result`.

  Read one operation at a time, the reference flattens each input row feature after feature (the reshape
  [4096, 26, 128] → [4096, 3328] keeps row-major order, so column k of row r is the argument at (r, k / 128, k % 128)),
  multiplies by the transposed weights (the transpose read back: W¹ᵀ at (k, j) is W¹ at (j, k)), adds the bias laid
  out as a row and copied down the rows, and takes the maximum with zero; twice; then the last affine layer.  Layer
  by layer that is `Mlp.hidden1`, `Mlp.hidden2`, `Mlp.outRow` of the flattened row.
-/
import proofs.«122074_g75342316306484_cont_9to1c4b_469_27_alg».proof.Proof.Gen.ReferenceIdeal.Read
import proofs.«122074_g75342316306484_cont_9to1c4b_469_27_alg».proof.Proof.MlpSpec

noncomputable section

open scoped BigOperators

namespace Cert.ReferenceIdeal.RefValue

open Cert.ReferenceIdeal Cert.ReferenceIdeal.Read Idealize.ShloMosaic Idealize.ShloMosaic.ValueIdx

/-- First layer: the reference's rectified first affine layer at row `r`, unit `j`. -/
theorem layer1 (x0 : (⟨S4096x26x128, .f32⟩ : BufTy).Contents (Elt Ideal)) (x1 : (⟨S1664x3328, .f32⟩ : BufTy).Contents (Elt Ideal))
    (x2 : (⟨S1664, .f32⟩ : BufTy).Contents (Elt Ideal)) (r : Fin 4096) (j : Fin 1664) :
    val_main_v6 (F := Ideal) x0 x1 x2 (ix2 r j) = Mlp.hidden1 x1 x2 (Mlp.flatRow x0 r) j := by
  rw [val_main_v6_apply, val_main_v5_apply, val_main_v2_apply, val_main_v4_apply, val_main_v3_apply,
    val_main_call0_v0_apply, val_main_call0_cst_apply]
  unfold Mlp.hidden1 Mlp.flatRow
  simp only [Ideal.maximumf_def, Ideal.addf_def, Ideal.ofBits_def]
  have e3 : idx_main_v3 (idx_main_v4 (ix2 r j)) = ix1 j := funext fun a => match a with | ⟨0, _⟩ => rfl
  rw [e3]
  refine congrArg (fun s => max (s + x2 (ix1 j)) Mlp.zero) ?_
  refine Finset.sum_congr rfl fun k _ => ?_
  rw [val_main_v0_apply, val_main_v1_apply]
  have e0 : idx_main_v0 (lidx_main_v2 (ix2 r j) k) = ix3 r (Mlp.feat k) (Mlp.lane k) := funext fun a => Fin.ext (by
    have hr := r.isLt; have hk := k.isLt
    match a with
    | ⟨0, _⟩ => show (r.val * 3328 + k.val) / 3328 = r.val; omega
    | ⟨1, _⟩ => show (r.val * 3328 + k.val) / 128 % 26 = k.val / 128; omega
    | ⟨2, _⟩ => show (r.val * 3328 + k.val) % 128 = k.val % 128; omega)
  have e1 : idx_main_v1 (ridx_main_v2 (ix2 r j) k) = ix2 j k :=
    funext fun a => match a with | ⟨0, _⟩ => rfl | ⟨1, _⟩ => rfl
  rw [e0, e1]

/-- Second layer at row `r`, unit `q`. -/
theorem layer2 (x0 : (⟨S4096x26x128, .f32⟩ : BufTy).Contents (Elt Ideal)) (x1 : (⟨S1664x3328, .f32⟩ : BufTy).Contents (Elt Ideal))
    (x2 : (⟨S1664, .f32⟩ : BufTy).Contents (Elt Ideal)) (x3 : (⟨S5x1664, .f32⟩ : BufTy).Contents (Elt Ideal))
    (x4 : (⟨S5, .f32⟩ : BufTy).Contents (Elt Ideal)) (r : Fin 4096) (q : Fin 5) :
    val_main_v12 (F := Ideal) x0 x1 x2 x3 x4 (ix2 r q) = Mlp.hidden2 x1 x2 x3 x4 (Mlp.flatRow x0 r) q := by
  rw [val_main_v12_apply, val_main_v11_apply, val_main_v8_apply, val_main_v10_apply, val_main_v9_apply,
    val_main_call1_v0_apply, val_main_call1_cst_apply]
  unfold Mlp.hidden2
  simp only [Ideal.maximumf_def, Ideal.addf_def, Ideal.ofBits_def]
  have e9 : idx_main_v9 (idx_main_v10 (ix2 r q)) = ix1 q := funext fun a => match a with | ⟨0, _⟩ => rfl
  rw [e9]
  refine congrArg (fun s => max (s + x4 (ix1 q)) Mlp.zero) ?_
  refine Finset.sum_congr rfl fun j _ => ?_
  have el : lidx_main_v8 (ix2 r q) j = ix2 r j := funext fun a => match a with | ⟨0, _⟩ => rfl | ⟨1, _⟩ => rfl
  have e7 : idx_main_v7 (ridx_main_v8 (ix2 r q) j) = ix2 q j :=
    funext fun a => match a with | ⟨0, _⟩ => rfl | ⟨1, _⟩ => rfl
  rw [el, layer1, val_main_v7_apply, e7]

/-- The last affine layer at row `r` (the result's one column `u`). -/
theorem layer3 (x0 : (⟨S4096x26x128, .f32⟩ : BufTy).Contents (Elt Ideal)) (x1 : (⟨S1664x3328, .f32⟩ : BufTy).Contents (Elt Ideal))
    (x2 : (⟨S1664, .f32⟩ : BufTy).Contents (Elt Ideal)) (x3 : (⟨S5x1664, .f32⟩ : BufTy).Contents (Elt Ideal))
    (x4 : (⟨S5, .f32⟩ : BufTy).Contents (Elt Ideal)) (x5 : (⟨S1x5, .f32⟩ : BufTy).Contents (Elt Ideal))
    (x6 : (⟨S1, .f32⟩ : BufTy).Contents (Elt Ideal)) (r : Fin 4096) (u : Fin 1) :
    val_main_v17 (F := Ideal) x0 x1 x2 x3 x4 x5 x6 (ix2 r u) = Mlp.outRow x1 x2 x3 x4 x5 x6 (Mlp.flatRow x0 r) := by
  rw [val_main_v17_apply, val_main_v14_apply, val_main_v16_apply, val_main_v15_apply]
  unfold Mlp.outRow
  simp only [Ideal.addf_def]
  have hu : u = 0 := Fin.ext (by omega)
  subst hu
  have e15 : idx_main_v15 (idx_main_v16 (ix2 r (0 : Fin 1))) = ix1 (0 : Fin 1) :=
    funext fun a => match a with | ⟨0, _⟩ => rfl
  rw [e15]
  refine congrArg (fun s => s + x6 (ix1 (0 : Fin 1))) ?_
  refine Finset.sum_congr rfl fun q _ => ?_
  have el : lidx_main_v14 (ix2 r (0 : Fin 1)) q = ix2 r q :=
    funext fun a => match a with | ⟨0, _⟩ => rfl | ⟨1, _⟩ => rfl
  have e13 : idx_main_v13 (ridx_main_v14 (ix2 r (0 : Fin 1)) q) = ix2 (0 : Fin 1) q :=
    funext fun a => match a with | ⟨0, _⟩ => rfl | ⟨1, _⟩ => rfl
  rw [el, layer2, val_main_v13_apply, e13]

/-- The reference's result, as the run states it, is `Mlp.result` of the arguments. -/
theorem ref_eq (x0 : (⟨S4096x26x128, .f32⟩ : BufTy).Contents (Elt Ideal)) (x1 : (⟨S1664x3328, .f32⟩ : BufTy).Contents (Elt Ideal))
    (x2 : (⟨S1664, .f32⟩ : BufTy).Contents (Elt Ideal)) (x3 : (⟨S5x1664, .f32⟩ : BufTy).Contents (Elt Ideal))
    (x4 : (⟨S5, .f32⟩ : BufTy).Contents (Elt Ideal)) (x5 : (⟨S1x5, .f32⟩ : BufTy).Contents (Elt Ideal))
    (x6 : (⟨S1, .f32⟩ : BufTy).Contents (Elt Ideal)) :
    val_main_v17 (F := Ideal) x0 x1 x2 x3 x4 x5 x6 = Mlp.result x0 x1 x2 x3 x4 x5 x6 := by
  funext i
  obtain ⟨r, u, rfl⟩ : ∃ (r : Fin 4096) (u : Fin 1), i = ix2 r u := ⟨i 0, i 1, eq_ix2 i⟩
  exact layer3 x0 x1 x2 x3 x4 x5 x6 r u

end Cert.ReferenceIdeal.RefValue

end
-- ==== Proof.lean ====
/-
  A three-layer perceptron over 4096 rows, computed two ways.

  The result is, for every row r of the input (a [26, 128] slab, read feature after feature as a vector x of 3328
  numbers),
      y_r = ∑_q max (∑_j max (∑_k x_k · W¹_jk + b¹_j) 0 · W²_qj + b²_q) 0 · W³_0q + b³_0
  (`Mlp.result`, Proof/MlpSpec.lean), over the extended reals.

  The reference computes exactly this, one whole-array operation at a time (Proof/RefIsSpec.lean).

  The kernel walks the rows in eight blocks of 512.  At the first block it copies the first layer's weights into a
  scratch buffer, which every later block reads back unchanged (by induction on the block).  For each block it lays
  the 26 feature slabs of its rows side by side, contracts them with weight rows 0–1023 and with weight rows
  1024–1663 separately, rectifies, contracts each half with its part of the second layer's weights and ADDS the two
  partial products; then the bias, the rectifier and the last layer.  At the extended reals every change of float
  format is the identity and a product into a zero accumulator is the plain sum, so the only difference from the
  formula above is that the sum over j < 1664 appears as the sum over j < 1024 plus the sum over 1024 ≤ j < 1664 —
  equal in any additive commutative monoid, infinite terms or not (`Mlp.sum_1664_split`); the precondition is never
  used.  Each block the kernel stores is therefore the block of `Mlp.result` (Proof/KernelRow.lean), and the eight
  blocks cover the result array (Proof/KernelArray.lean).

  The idealized kernel is the kernel's own text read at the extended reals (no operation was rewritten), so
  `preserves` has no conjunct.  The three frames are the generated ones (the reference's is its generated run with
  the result dropped).
-/
import proofs.«122074_g75342316306484_cont_9to1c4b_469_27_alg».proof.Defs
import proofs.«122074_g75342316306484_cont_9to1c4b_469_27_alg».proof.Proof.Gen.Kernel
import proofs.«122074_g75342316306484_cont_9to1c4b_469_27_alg».proof.Proof.Gen.Kernel.Frame
import proofs.«122074_g75342316306484_cont_9to1c4b_469_27_alg».proof.Proof.Gen.KernelIdeal
import proofs.«122074_g75342316306484_cont_9to1c4b_469_27_alg».proof.Proof.Gen.KernelIdeal.Frame
import proofs.«122074_g75342316306484_cont_9to1c4b_469_27_alg».proof.Proof.Gen.KernelIdeal.Value
import proofs.«122074_g75342316306484_cont_9to1c4b_469_27_alg».proof.Proof.Gen.ReferenceIdeal
import proofs.«122074_g75342316306484_cont_9to1c4b_469_27_alg».proof.Proof.Gen.ReferenceIdeal.Run
import proofs.«122074_g75342316306484_cont_9to1c4b_469_27_alg».proof.Proof.Gen.ReferenceIdeal.Read
import proofs.«122074_g75342316306484_cont_9to1c4b_469_27_alg».proof.Proof.Gen.Pre_finite_inputs
import proofs.«122074_g75342316306484_cont_9to1c4b_469_27_alg».proof.Proof.KernelArray
import proofs.«122074_g75342316306484_cont_9to1c4b_469_27_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Mlp.result` of arguments that agree. -/
theorem algebraic : Cert.algebraic_KernelIdeal_ReferenceIdeal := by
  intro m ρ m' ρ' _ hagree
  refine ⟨fun c => Cert.KernelIdeal.Arr.G m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v17_eq, Cert.ReferenceIdeal.RefValue.ref_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
